-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096 : Shape := ⟨1, ![4096]⟩
abbrev S4096x16384 : Shape := ⟨2, ![4096, 16384]⟩
abbrev S16384 : Shape := ⟨1, ![16384]⟩
abbrev S16384x4096 : Shape := ⟨2, ![16384, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096 : S_.BroadcastsInDim S4096 (![] : Fin 0 → Fin S4096.rank)
  reducesTo_S4096_S_d0 : S4096.ReducesTo [0] S_
  bcast_S_S4096x16384 : S_.BroadcastsInDim S4096x16384 (![] : Fin 0 → Fin S4096x16384.rank)
  reducesTo_S4096x16384_S_d0_1 : S4096x16384.ReducesTo [0, 1] S_
  bcast_S_S16384 : S_.BroadcastsInDim S16384 (![] : Fin 0 → Fin S16384.rank)
  reducesTo_S16384_S_d0 : S16384.ReducesTo [0] S_
  bcast_S_S16384x4096 : S_.BroadcastsInDim S16384x4096 (![] : Fin 0 → Fin S16384x4096.rank)
  reducesTo_S16384x4096_S_d0_1 : S16384x4096.ReducesTo [0, 1] S_

variable [Facts]

def fn_part2 {F : FTy → Type} [FloatOps F] (main_arg7 : FVec F S16384 .f32) (main_arg8 : FVec F S16384x4096 .f32) (main_arg9 : FVec F S4096 .f32) (main_v33 : IVec S_ 1) : IVec S_ 1 :=
  let main_v34 : FVec F S16384 .f32 := Host.absf main_arg7
  let main_cst_12 : FVec F S_ .f32 := constant S_ .f32 0x7F800000#32
  let main_v35 : FVec F S16384 .f32 := broadcastInDim S16384 ![] bcast_S_S16384 main_cst_12
  let main_v36 : IVec S16384 1 := cmpf .olt main_v34 main_v35
  let main_c_13 : IVec S_ 1 := constantI S_ 1 1#1
  let main_v37 : IVec S_ 1 := (fun x v => Host.reduce IntOp.andi x v reducesTo_S16384_S_d0 h_S_) main_v36 main_c_13
  let main_v38 : IVec S_ 1 := andi main_v33 main_v37
  let main_v39 : FVec F S16384x4096 .f32 := Host.absf main_arg8
  let main_cst_14 : FVec F S_ .f32 := constant S_ .f32 0x7F800000#32
  let main_v40 : FVec F S16384x4096 .f32 := broadcastInDim S16384x4096 ![] bcast_S_S16384x4096 main_cst_14
  let main_v41 : IVec S16384x4096 1 := cmpf .olt main_v39 main_v40
  let main_c_15 : IVec S_ 1 := constantI S_ 1 1#1
  let main_v42 : IVec S_ 1 := (fun x v => Host.reduce IntOp.andi x v reducesTo_S16384x4096_S_d0_1 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  main_v48

def fn_part1 {F : FTy → Type} [FloatOps F] (main_arg4 : FVec F S4096 .f32) (main_arg5 : FVec F S4096 .f32) (main_arg6 : FVec F S4096x16384 .f32) (main_arg7 : FVec F S16384 .f32) (main_arg8 : FVec F S16384x4096 .f32) (main_arg9 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096x16384 .f32 := Host.absf main_arg6
  let main_cst_10 : FVec F S_ .f32 := constant S_ .f32 0x7F800000#32
  let main_v30 : FVec F S4096x16384 .f32 := broadcastInDim S4096x16384 ![] bcast_S_S4096x16384 main_cst_10
  let main_v31 : IVec S4096x16384 1 := cmpf .olt main_v29 main_v30
  let main_c_11 : IVec S_ 1 := constantI S_ 1 1#1
  let main_v32 : IVec S_ 1 := (fun x v => Host.reduce IntOp.andi x v reducesTo_S4096x16384_S_d0_1 h_S_) main_v31 main_c_11
  let main_v33 : IVec S_ 1 := andi main_v28 main_v32
  fn_part2 (F := F) main_arg7 main_arg8 main_arg9 main_v33

def fn {F : FTy → Type} [FloatOps F] (main_arg0 : FVec F S4x2048x4096 .f32) (main_arg1 : FVec F S4x2048x4096 .f32) (main_arg2 : FVec F S4x2048x4096 .f32) (main_arg3 : FVec F S4096 .f32) (main_arg4 : FVec F S4096 .f32) (main_arg5 : FVec F S4096 .f32) (main_arg6 : FVec F S4096x16384 .f32) (main_arg7 : FVec F S16384 .f32) (main_arg8 : FVec F S16384x4096 .f32) (main_arg9 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4x2048x4096 .f32 := Host.absf main_arg1
  let main_cst_0 : FVec F S_ .f32 := constant S_ .f32 0x7F800000#32
  let main_v5 : FVec F S4x2048x4096 .f32 := broadcastInDim S4x2048x4096 ![] bcast_S_S4x2048x4096 main_cst_0
  let main_v6 : IVec S4x2048x4096 1 := cmpf .olt main_v4 main_v5
  let main_c_1 : IVec S_ 1 := constantI S_ 1 1#1
  let main_v7 : IVec S_ 1 := (fun x v => Host.reduce IntOp.andi x v reducesTo_S4x2048x4096_S_d0_1_2 h_S_) main_v6 main_c_1
  let main_v8 : IVec S_ 1 := andi main_v3 main_v7
  let main_v9 : FVec F S4x2048x4096 .f32 := Host.absf main_arg2
  let main_cst_2 : FVec F S_ .f32 := constant S_ .f32 0x7F800000#32
  let main_v10 : FVec F S4x2048x4096 .f32 := broadcastInDim S4x2048x4096 ![] bcast_S_S4x2048x4096 main_cst_2
  let main_v11 : IVec S4x2048x4096 1 := cmpf .olt main_v9 main_v10
  let main_c_3 : IVec S_ 1 := constantI S_ 1 1#1
  let main_v12 : IVec S_ 1 := (fun x v => Host.reduce IntOp.andi x v reducesTo_S4x2048x4096_S_d0_1_2 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_v13 main_v16
-- ==== Kernel.lean ====
abbrev S4x2048x4096 : Shape := ⟨3, ![4, 2048, 4096]⟩
abbrev S4096 : Shape := ⟨1, ![4096]⟩
abbrev S4096x16384 : Shape := ⟨2, ![4096, 16384]⟩
abbrev S16384 : Shape := ⟨1, ![16384]⟩
abbrev S16384x4096 : Shape := ⟨2, ![16384, 4096]⟩
abbrev S1x1x4096 : Shape := ⟨3, ![1, 1, 4096]⟩
abbrev S8192x4096 : Shape := ⟨2, ![8192, 4096]⟩
abbrev S1x4096 : Shape := ⟨2, ![1, 4096]⟩
abbrev S1x16384 : Shape := ⟨2, ![1, 16384]⟩
abbrev S256x4096 : Shape := ⟨2, ![256, 4096]⟩
abbrev S4096x512 : Shape := ⟨2, ![4096, 512]⟩
abbrev S1x512 : Shape := ⟨2, ![1, 512]⟩
abbrev S512x4096 : Shape := ⟨2, ![512, 4096]⟩
abbrev S256 : Shape := ⟨1, ![256]⟩
abbrev S256x1 : Shape := ⟨2, ![256, 1]⟩
abbrev S256x512 : Shape := ⟨2, ![256, 512]⟩

abbrev nBuf : Space → Nat
  | .hbm => 23
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S4x2048x4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096x16384, .f32⟩
  | .hbm, ⟨7, _⟩ => ⟨S16384, .f32⟩
  | .hbm, ⟨8, _⟩ => ⟨S16384x4096, .f32⟩
  | .hbm, ⟨9, _⟩ => ⟨S4096, .f32⟩
  | .hbm, ⟨10, _⟩ => ⟨S4x2048x4096, .f32⟩
  | .hbm, ⟨11, _⟩ => ⟨S1x1x4096, .f32⟩
  | .hbm, ⟨12, _⟩ => ⟨S4x2048x4096, .f32⟩
  | .hbm, ⟨13, _⟩ => ⟨S4x2048x4096, .f32⟩
  | .hbm, ⟨14, _⟩ => ⟨S8192x4096, .f32⟩
  | .hbm, ⟨15, _⟩ => ⟨S1x4096, .f32⟩
  | .hbm, ⟨16, _⟩ => ⟨S1x4096, .f32⟩
  | .hbm, ⟨17, _⟩ => ⟨S1x16384, .f32⟩
  | .hbm, ⟨18, _⟩ => ⟨S1x4096, .f32⟩
  | .hbm, ⟨19, _⟩ => ⟨S4096x16384, .bf16⟩
  | .hbm, ⟨20, _⟩ => ⟨S16384x4096, .bf16⟩
  | .hbm, ⟨21, _⟩ => ⟨S8192x4096, .f32⟩
  | .hbm, ⟨22, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S4096x512, .bf16⟩
  | .local _ .vmem, ⟨5, _⟩ => ⟨S4096x512, .bf16⟩
  | .local _ .vmem, ⟨6, _⟩ => ⟨S1x512, .f32⟩
  | .local _ .vmem, ⟨7, _⟩ => ⟨S1x512, .f32⟩
  | .local _ .vmem, ⟨8, _⟩ => ⟨S512x4096, .bf16⟩
  | .local _ .vmem, ⟨9, _⟩ => ⟨S512x4096, .bf16⟩
  | .local _ .vmem, ⟨10, _⟩ => ⟨S1x4096, .f32⟩
  | .local _ .vmem, ⟨11, _⟩ => ⟨S256x4096, .f32⟩
  | .local _ .vmem, ⟨12, _⟩ => ⟨S256x4096, .f32⟩
  | .local _ .vmem, ⟨13, _⟩ => ⟨S256x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  shapeCasts_S4x2048x4096_S8192x4096 : S4x2048x4096.ShapeCasts S8192x4096
  shapeCasts_S4096_S1x4096 : S4096.ShapeCasts S1x4096
  shapeCasts_S16384_S1x16384 : S16384.ShapeCasts S1x16384
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  broadcasts_S256x1_S256x4096 : S256x1.Broadcasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  packedbf16_S256x4096_S256x4096_0_0 : (Rect.unit (s := S256x4096) ![0, 0] S256x4096.size inb_S256x4096_S256x4096_0_0).PackedRows (EltTy.packing .bf16)
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  shapeCasts_S8192x4096_S4x2048x4096 : S8192x4096.ShapeCasts S4x2048x4096
  dot_S256x4096_S4096x512_S256x512_1_0_0_1_n_n_wf : DotDims.WF S256x4096 S4096x512 S256x512 [1] [0] [0] [1] [] []
  dot_S256x512_S512x4096_S256x4096_1_0_0_1_n_n_wf : DotDims.WF S256x512 S512x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S4096x16384.size a
  hwx0_3 : ∀ i : grid0.Coords, EltTy.bits .bf16 = 32 ∨ (Rect.block (s := S4096x16384) S4096x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x16384.size a
  hwx0_4 : ∀ i : grid0.Coords, EltTy.bits .f32 = 32 ∨ (Rect.block (s := S1x16384) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x4096.size a ≤ S16384x4096.size a
  hwx0_5 : ∀ i : grid0.Coords, EltTy.bits .bf16 = 32 ∨ (Rect.block (s := S16384x4096) S512x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x4096.size a ≤ S8192x4096.size a
  hwx0_7 : ∀ i : grid0.Coords, EltTy.bits .f32 = 32 ∨ (Rect.block (s := S8192x4096) S256x4096.size (cc0_transform_7 i) (hinb0_7 i)).WholeWords (EltTy.packing .f32)

variable [Facts₀]

def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf
def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf

abbrev win0_0 : Pipeline.Window sig grid0 :=
  Pipeline.Window.ofSpec (Memref.whole main_v4) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S4096x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S512x4096.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S256x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096 : Shape := ⟨1, ![4096]⟩
abbrev S4096x16384 : Shape := ⟨2, ![4096, 16384]⟩
abbrev S16384 : Shape := ⟨1, ![16384]⟩
abbrev S16384x4096 : Shape := ⟨2, ![16384, 4096]⟩
abbrev S1x1x4096 : Shape := ⟨3, ![1, 1, 4096]⟩
abbrev S_ : Shape := ⟨0, ![]⟩
abbrev S4x2048 : Shape := ⟨2, ![4, 2048]⟩
abbrev S4x2048x1 : Shape := ⟨3, ![4, 2048, 1]⟩
abbrev S4x2048x16384 : Shape := ⟨3, ![4, 2048, 16384]⟩
abbrev S1x1x16384 : Shape := ⟨3, ![1, 1, 16384]⟩

abbrev nBuf : Space → Nat
  | .hbm => 69
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S4x2048x4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096x16384, .f32⟩
  | .hbm, ⟨7, _⟩ => ⟨S16384, .f32⟩
  | .hbm, ⟨8, _⟩ => ⟨S16384x4096, .f32⟩
  | .hbm, ⟨9, _⟩ => ⟨S4096, .f32⟩
  | .hbm, ⟨10, _⟩ => ⟨S4x2048x4096, .f32⟩
  | .hbm, ⟨11, _⟩ => ⟨S1x1x4096, .f32⟩
  | .hbm, ⟨12, _⟩ => ⟨S4x2048x4096, .f32⟩
  | .hbm, ⟨13, _⟩ => ⟨S4x2048x4096, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x4096, .f32⟩
  | .hbm, ⟨21, _⟩ => ⟨S4x2048x4096, .f32⟩
  | .hbm, ⟨22, _⟩ => ⟨S4x2048x4096, .f32⟩
  | .hbm, ⟨23, _⟩ => ⟨S_, .f32⟩
  | .hbm, ⟨24, _⟩ => ⟨S4x2048, .f32⟩
  | .hbm, ⟨25, _⟩ => ⟨S4x2048x1, .f32⟩
  | .hbm, ⟨26, _⟩ => ⟨S_, .f32⟩
  | .hbm, ⟨27, _⟩ => ⟨S4x2048x1, .f32⟩
  | .hbm, ⟨28, _⟩ => ⟨S4x2048x1, .f32⟩
  | .hbm, ⟨29, _⟩ => ⟨S4x2048x4096, .f32⟩
  | .hbm, ⟨30, _⟩ => ⟨S4x2048x4096, .f32⟩
  | .hbm, ⟨31, _⟩ => ⟨S_, .f32⟩
  | .hbm, ⟨32, _⟩ => ⟨S4x2048x1, .f32⟩
  | .hbm, ⟨33, _⟩ => ⟨S4x2048x1, .f32⟩
  | .hbm, ⟨34, _⟩ => ⟨S4x2048x1, .f32⟩
  | .hbm, ⟨35, _⟩ => ⟨S4x2048x4096, .f32⟩
  | .hbm, ⟨36, _⟩ => ⟨S4x2048x4096, .f32⟩
  | .hbm, ⟨37, _⟩ => ⟨S1x1x4096, .f32⟩
  | .hbm, ⟨38, _⟩ => ⟨S4x2048x4096, .f32⟩
  | .hbm, ⟨39, _⟩ => ⟨S4x2048x4096, .f32⟩
  | .hbm, ⟨40, _⟩ => ⟨S1x1x4096, .f32⟩
  | .hbm, ⟨41, _⟩ => ⟨S4x2048x4096, .f32⟩
  | .hbm, ⟨42, _⟩ => ⟨S4x2048x4096, .f32⟩
  | .hbm, ⟨43, _⟩ => ⟨S4x2048x16384, .f32⟩
  | .hbm, ⟨44, _⟩ => ⟨S1x1x16384, .f32⟩
  | .hbm, ⟨45, _⟩ => ⟨S4x2048x16384, .f32⟩
  | .hbm, ⟨46, _⟩ => ⟨S4x2048x16384, .f32⟩
  | .hbm, ⟨47, _⟩ => ⟨S4x2048x16384, .f32⟩
  | .hbm, ⟨48, _⟩ => ⟨S4x2048x16384, .f32⟩
  | .hbm, ⟨49, _⟩ => ⟨S_, .f32⟩
  | .hbm, ⟨50, _⟩ => ⟨S4x2048x16384, .f32⟩
  | .hbm, ⟨51, _⟩ => ⟨S4x2048x16384, .f32⟩
  | .hbm, ⟨52, _⟩ => ⟨S4x2048x16384, .f32⟩
  | .hbm, ⟨53, _⟩ => ⟨S_, .f32⟩
  | .hbm, ⟨54, _⟩ => ⟨S4x2048x16384, .f32⟩
  | .hbm, ⟨55, _⟩ => ⟨S4x2048x16384, .f32⟩
  | .hbm, ⟨56, _⟩ => ⟨S4x2048x16384, .f32⟩
  | .hbm, ⟨57, _⟩ => ⟨S_, .f32⟩
  | .hbm, ⟨58, _⟩ => ⟨S4x2048x16384, .f32⟩
  | .hbm, ⟨59, _⟩ => ⟨S4x2048x16384, .f32⟩
  | .hbm, ⟨60, _⟩ => ⟨S_, .f32⟩
  | .hbm, ⟨61, _⟩ => ⟨S4x2048x16384, .f32⟩
  | .hbm, ⟨62, _⟩ => ⟨S4x2048x16384, .f32⟩
  | .hbm, ⟨63, _⟩ => ⟨S4x2048x16384, .f32⟩
  | .hbm, ⟨64, _⟩ => ⟨S4x2048x4096, .f32⟩
  | .hbm, ⟨65, _⟩ => ⟨S4x2048x4096, .f32⟩
  | .hbm, ⟨66, _⟩ => ⟨S1x1x4096, .f32⟩
  | .hbm, ⟨67, _⟩ => ⟨S4x2048x4096, .f32⟩
  | .hbm, ⟨68, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  reducesTo_S4x2048x4096_S4x2048_d2 : S4x2048x4096.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x4096_0_1_2 : S4x2048x1.BroadcastsInDim S4x2048x4096 (![0, 1, 2] : Fin 3 → Fin S4x2048x4096.rank)
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  bcast_S_S4x2048x16384 : S_.BroadcastsInDim S4x2048x16384 (![] : Fin 0 → Fin S4x2048x16384.rank)
  dot_S4x2048x4096_S4096x16384_S4x2048x16384_2_0_01_1_n_n_wf : DotDims.WF S4x2048x4096 S4096x16384 S4x2048x16384 [2] [0] [0, 1] [1] [] []
  dot_S4x2048x16384_S16384x4096_S4x2048x4096_2_0_01_1_n_n_wf : DotDims.WF S4x2048x16384 S16384x4096 S4x2048x4096 [2] [0] [0, 1] [1] [] []

variable [Facts₀]

def dot_S4x2048x4096_S4096x16384_S4x2048x16384_2_0_01_1_n_n : DotDims S4x2048x4096 S4096x16384 S4x2048x16384 where
  lhsContracting := [2]
  rhsContracting := [0]
  lhsNonContracting := [0, 1]
  rhsNonContracting := [1]
  lhsBatch := []
  rhsBatch := []
  wf := dot_S4x2048x4096_S4096x16384_S4x2048x16384_2_0_01_1_n_n_wf
def dot_S4x2048x16384_S16384x4096_S4x2048x4096_2_0_01_1_n_n : DotDims S4x2048x16384 S16384x4096 S4x2048x4096 where
  lhsContracting := [2]
  rhsContracting := [0]
  lhsNonContracting := [0, 1]
  rhsNonContracting := [1]
  lhsBatch := []
  rhsBatch := []
  wf := dot_S4x2048x16384_S16384x4096_S4x2048x4096_2_0_01_1_n_n_wf

class Facts : Prop extends Facts₀ where

variable [Facts]
-- ==== Proof.Pieces.lean ====
/-
  What one step of the fused layer leaves behind, in each of the three positions a step can have along the
  hidden-tile axis.

  A step works on one tile of 256 rows and one group of 512 hidden columns. It keeps two things between steps: the
  normalised rows (computed once, at the first group) and the running output block.

  • first group: the normalised rows are computed from the row tile, the gain and the shift; the output block is set
    to zero and the first group's contribution is added to it;
  • a middle group: the normalised rows are kept; the group's contribution is added to the output block;
  • last group: the group's contribution is added, then the row tile and the output shift.

  Each statement below says that the stored contents are exactly that composition of the step's arithmetic
  (normalise, contribute, finish, zero), for any number format.
-/
import proofs.«122750_j77189152243985_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces
open Cert.KernelIdeal Cert.KernelIdeal.Gen

variable {F : FTy → Type} [FloatOps F]

theorem hz : (![0, 0] : Fin 2 → Nat) = fun _ => 0 := funext fun a => by fin_cases a <;> rfl

/-- First group: the carried rows are the normalised row tile. -/
theorem sout_A (c : Dev nD) (i : grid0.Coords) (arg2 : Memref sig .tc .vmem S256x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x512 .bf16) (harg5 : arg5.IsWhole) (arg6 : Memref sig .tc .vmem S1x512 .f32) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S256x4096 .f32) (harg9 : arg9.IsWhole) (arg10 : Memref sig .tc .vmem S256x4096 .bf16) (harg10 : arg10.IsWhole) (hc0 : cond0_0 i) (hc1 : ¬cond0_1 i) (x0 : Vec F S256x4096 .f32) (x1 : Vec F S1x4096 .f32) (x2 : Vec F S1x4096 .f32) (x3 : Vec F S4096x512 .bf16) (x4 : Vec F S1x512 .f32) (x5 : Vec F S512x4096 .bf16) (x6 : Vec F S1x4096 .f32) :
    sout0_A_0 c i arg2 harg2 arg3 harg3 arg4 harg4 arg5 harg5 arg6 harg6 arg7 harg7 arg8 harg8 arg9 harg9 arg10 harg10 hc0 hc1 x0 x1 x2 x3 x4 x5 x6 = k0_pay2 x0 x1 x2 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_unit_zero hz]
  simp only [View.readAt_eq_ld, harg2.read_unread, harg3.read_unread, harg4.read_unread,
    View.ld_unit_zero (S := S256x4096) hz, View.ld_unit_zero (S := S1x4096) hz]

/-- First group: the output block is zero plus the first contribution, computed from the freshly normalised rows. -/
theorem out_A (c : Dev nD) (i : grid0.Coords) (arg2 : Memref sig .tc .vmem S256x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x512 .bf16) (harg5 : arg5.IsWhole) (arg6 : Memref sig .tc .vmem S1x512 .f32) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S256x4096 .f32) (harg9 : arg9.IsWhole) (arg10 : Memref sig .tc .vmem S256x4096 .bf16) (harg10 : arg10.IsWhole) (hc0 : cond0_0 i) (hc1 : ¬cond0_1 i) (x0 : Vec F S256x4096 .f32) (x1 : Vec F S1x4096 .f32) (x2 : Vec F S1x4096 .f32) (x3 : Vec F S4096x512 .bf16) (x4 : Vec F S1x512 .f32) (x5 : Vec F S512x4096 .bf16) (x6 : Vec F S1x4096 .f32) :
    out0_A_7 c i arg2 harg2 arg3 harg3 arg4 harg4 arg5 harg5 arg6 harg6 arg7 harg7 arg8 harg8 arg9 harg9 arg10 harg10 hc0 hc1 x0 x1 x2 x3 x4 x5 x6 = k0_pay4 (k0_pay2 x0 x1 x2) x3 x4 x5 (k0_pay3 (F := F)) := by
  unfold out0_A_7
  rw [View.read_writes_eq_canon _ _ _ (cover0_A_7 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S256x4096) hz, View.readCov_unit_zero (S := S256x4096) _ hz,
    View.readCov_unit_zero (S := S256x4096) _ hz]
  simp only [View.readAt_eq_ld, harg2.read_unread, harg3.read_unread, harg4.read_unread, harg5.read_unread,
    harg6.read_unread, harg7.read_unread,
    View.ld_unit_zero (S := S256x4096) hz, View.ld_unit_zero (S := S1x4096) hz, View.ld_unit_zero (S := S4096x512) hz,
    View.ld_unit_zero (S := S1x512) hz, View.ld_unit_zero (S := S512x4096) hz]

/-- Middle group: the output block is what the step before left plus this group's contribution, from the carried rows. -/
theorem out_B (c : Dev nD) (i : grid0.Coords) (arg2 : Memref sig .tc .vmem S256x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x512 .bf16) (harg5 : arg5.IsWhole) (arg6 : Memref sig .tc .vmem S1x512 .f32) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S256x4096 .f32) (harg9 : arg9.IsWhole) (arg10 : Memref sig .tc .vmem S256x4096 .bf16) (harg10 : arg10.IsWhole) (hc0 : ¬cond0_0 i) (hc1 : ¬cond0_1 i) (x0 : Vec F S256x4096 .f32) (x1 : Vec F S1x4096 .f32) (x2 : Vec F S1x4096 .f32) (x3 : Vec F S4096x512 .bf16) (x4 : Vec F S1x512 .f32) (x5 : Vec F S512x4096 .bf16) (x6 : Vec F S1x4096 .f32) (xo7 : Vec F S256x4096 .f32) (xs0 : Vec F S256x4096 .bf16) :
    out0_B_7 c i arg2 harg2 arg3 harg3 arg4 harg4 arg5 harg5 arg6 harg6 arg7 harg7 arg8 harg8 arg9 harg9 arg10 harg10 hc0 hc1 x0 x1 x2 x3 x4 x5 x6 xo7 xs0 = k0_pay4 xs0 x3 x4 x5 xo7 := by
  unfold out0_B_7
  rw [View.read_writes_eq_canon _ _ _ (cover0_B_7 c i arg2 harg2 arg3 harg3 arg4 harg4 arg5 harg5 arg6 harg6 arg7 harg7 arg8 harg8 arg9 harg9 arg10 harg10 hc0 hc1 x0 x1 x2 x3 x4 x5 x6 xo7 xs0)]
  unfold kernelRun0_B
  dsimp only
  sl_unfold_words
  rw [View.canon_unit_zero (S := S256x4096) hz]
  simp only [View.readAt_eq_ld, harg2.read_unread, harg3.read_unread, harg4.read_unread, harg5.read_unread,
    harg6.read_unread, harg7.read_unread, harg8.read_unread, harg9.read_unread, harg10.read_unread,
    View.ld_unit_zero (S := S256x4096) hz, View.ld_unit_zero (S := S1x4096) hz, View.ld_unit_zero (S := S4096x512) hz,
    View.ld_unit_zero (S := S1x512) hz, View.ld_unit_zero (S := S512x4096) hz]

/-- Last group: the same sum, then the row tile and the output shift are added. -/
theorem out_C (c : Dev nD) (i : grid0.Coords) (arg2 : Memref sig .tc .vmem S256x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x512 .bf16) (harg5 : arg5.IsWhole) (arg6 : Memref sig .tc .vmem S1x512 .f32) (harg6 : arg6.IsWhole) (arg7 : Memref sig .tc .vmem S512x4096 .bf16) (harg7 : arg7.IsWhole) (arg8 : Memref sig .tc .vmem S1x4096 .f32) (harg8 : arg8.IsWhole) (arg9 : Memref sig .tc .vmem S256x4096 .f32) (harg9 : arg9.IsWhole) (arg10 : Memref sig .tc .vmem S256x4096 .bf16) (harg10 : arg10.IsWhole) (hc0 : ¬cond0_0 i) (hc1 : cond0_1 i) (x0 : Vec F S256x4096 .f32) (x1 : Vec F S1x4096 .f32) (x2 : Vec F S1x4096 .f32) (x3 : Vec F S4096x512 .bf16) (x4 : Vec F S1x512 .f32) (x5 : Vec F S512x4096 .bf16) (x6 : Vec F S1x4096 .f32) (xo7 : Vec F S256x4096 .f32) (xs0 : Vec F S256x4096 .bf16) :
    out0_C_7 c i arg2 harg2 arg3 harg3 arg4 harg4 arg5 harg5 arg6 harg6 arg7 harg7 arg8 harg8 arg9 harg9 arg10 harg10 hc0 hc1 x0 x1 x2 x3 x4 x5 x6 xo7 xs0 = k0_pay1 (k0_pay4 xs0 x3 x4 x5 xo7) x0 x6 := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xo7 xs0)]
  unfold kernelRun0_C
  dsimp only
  sl_unfold_words
  rw [View.canon_cons_unit_zero (S := S256x4096) hz, View.readCov_unit_zero (S := S256x4096) _ hz]
  simp only [View.readAt_eq_ld, harg2.read_unread, harg3.read_unread, harg4.read_unread, harg5.read_unread,
    harg6.read_unread, harg7.read_unread, harg8.read_unread, harg9.read_unread, harg10.read_unread,
    View.ld_unit_zero (S := S256x4096) hz, View.ld_unit_zero (S := S1x4096) hz, View.ld_unit_zero (S := S4096x512) hz,
    View.ld_unit_zero (S := S1x512) hz, View.ld_unit_zero (S := S512x4096) hz]

end Cert.KernelIdeal.Pieces
end
-- ==== Proof.LibGemmSplit.lean ====
/-
  Sums cut into equal blocks, and a sum over the four elements of `Fin 4` taken in any order: general facts over an
  additive commutative monoid (the extended reals are one: no finiteness is asked anywhere), and two regroupings of a
  product in a commutative monoid. Nothing here mentions a program.
-/
import Mathlib.Algebra.BigOperators.Fin
import Mathlib.Algebra.BigOperators.Group.Finset.Basic
import Mathlib.Data.Fintype.BigOperators
import Mathlib.Data.EReal.Inv
import Mathlib.Logic.Equiv.Fin.Basic

open scoped BigOperators

namespace Cert.LibGemmSplit

/-- Position `j` of block `c`, of `n` blocks of length `b` laid end to end, is below the total length. -/
theorem blk_lt {N n b : ℕ} (h : n * b = N) (c : Fin n) (j : Fin b) : b * c.val + j.val < N := by
  have hc : c.val + 1 ≤ n := c.isLt
  calc b * c.val + j.val < b * c.val + b := Nat.add_lt_add_left j.isLt _
    _ = b * (c.val + 1) := (Nat.mul_succ _ _).symm
    _ ≤ b * n := Nat.mul_le_mul_left _ hc
    _ = N := by rw [Nat.mul_comm, h]

/-- A sum over `Fin N`, `N = n * b`, is the sum over the `n` consecutive blocks of length `b` of each block's sum:
    `∑ k, f k = ∑ c, ∑ j, f (b * c + j)`. Only commutativity and associativity of `+` are used. -/
theorem sum_blocks {M : Type*} [AddCommMonoid M] {N n b : ℕ} (h : n * b = N) (f : Fin N → M) :
    ∑ k : Fin N, f k = ∑ c : Fin n, ∑ j : Fin b, f ⟨b * c.val + j.val, blk_lt h c j⟩ := by
  subst h
  rw [← Equiv.sum_comp finProdFinEquiv f, Fintype.sum_prod_type]
  refine Finset.sum_congr rfl fun c _ => Finset.sum_congr rfl fun j _ => congrArg f (Fin.ext ?_)
  show j.val + b * c.val = b * c.val + j.val
  exact Nat.add_comm _ _

/-- The case of this file's name: 1024 terms as 4 blocks of 256. -/
theorem sum_1024_eq_4x256 {M : Type*} [AddCommMonoid M] (f : Fin 1024 → M) :
    ∑ k : Fin 1024, f k = ∑ c : Fin 4, ∑ j : Fin 256, f ⟨256 * c.val + j.val, blk_lt (by norm_num) c j⟩ :=
  sum_blocks (n := 4) (b := 256) (by norm_num) f

/-- Four pairwise distinct elements of `Fin 4` are all of them. -/
theorem univ_eq_of_distinct : ∀ a b c d : Fin 4, a ≠ b → a ≠ c → a ≠ d → b ≠ c → b ≠ d → c ≠ d →
    (Finset.univ : Finset (Fin 4)) = {a, b, c, d} := by decide

/-- The values of `g` at four pairwise distinct elements of `Fin 4`, added in that order (grouped from the right),
    are the sum of `g` over `Fin 4`. -/
theorem sum_four_distinct {M : Type*} [AddCommMonoid M] (g : Fin 4 → M) (a b c d : Fin 4)
    (hab : a ≠ b) (hac : a ≠ c) (had : a ≠ d) (hbc : b ≠ c) (hbd : b ≠ d) (hcd : c ≠ d) :
    g a + (g b + (g c + g d)) = ∑ i : Fin 4, g i := by
  rw [univ_eq_of_distinct a b c d hab hac had hbc hbd hcd,
    Finset.sum_insert (by simp [hab, hac, had]), Finset.sum_insert (by simp [hbc, hbd]),
    Finset.sum_insert (by simp [hcd]), Finset.sum_singleton]

/-- The same for the four values of a bijection of `Fin 4`. -/
theorem sum_four_perm {M : Type*} [AddCommMonoid M] (g : Fin 4 → M) (σ : Fin 4 ≃ Fin 4) :
    g (σ 0) + (g (σ 1) + (g (σ 2) + g (σ 3))) = ∑ i : Fin 4, g i := by
  rw [← Equiv.sum_comp σ g, Fin.sum_univ_four, add_assoc, add_assoc]

/-- In a commutative monoid (the extended reals under `*`): `((k * y) * y) * y = k * ((y * y) * y)`. -/
theorem mul_cube_assoc {M : Type*} [CommMonoid M] (k y : M) : ((k * y) * y) * y = k * ((y * y) * y) := by
  rw [mul_assoc k y y, mul_assoc k (y * y) y]

/-- The same on the extended reals, where it is used. -/
theorem ereal_mul_cube_assoc (k y : EReal) : ((k * y) * y) * y = k * ((y * y) * y) := mul_cube_assoc k y

end Cert.LibGemmSplit
-- ==== Proof.Spec.lean ====
/-
  The mathematics of one row of the fused layer, over the extended reals.

  A row x of 4096 entries is normalised (its mean and its mean squared deviation, each a sum divided by 4096; the
  deviation scaled by the reciprocal square root of the variance plus a small constant, then by a gain and a shift),
  multiplied into 16384 hidden columns, each passed through the tanh form of the GELU, and multiplied back into 4096
  output columns; the row itself and an output shift are added at the end:

      out h = ((∑ j, gelu ((∑ k, ln k · W1 k j) + B1 j) · W2 j h) + x h) + ob h .

  The sum over the 16384 hidden columns can be taken 512 columns at a time, 32 partial sums added one after the other
  starting from zero: only commutativity and associativity of addition are needed, so nothing has to be finite.
-/
import Idealize.ShloMosaic.PureOps.Ideal
import Idealize.ShloMosaic.PureOps.Ideal.Laws
import Idealize.ShloMosaic.Lib.ValueIdx
import proofs.«122750_j77189152243985_2_alg».proof.Proof.LibGemmSplit

noncomputable section

open scoped BigOperators
open Idealize.ShloMosaic Idealize.ShloMosaic.ValueIdx

namespace Cert.MlpRow

/-- The mean of a row: its sum divided by 4096 (the divisor is the exact binary word of 4096). -/
def rowMean (x : Fin 4096 → EReal) : EReal :=
  Ideal.div (∑ k : Fin 4096, x k) (Ideal.ofBits .f32 0x45800000#32)

/-- The mean squared deviation of a row from its mean. -/
def rowVar (x : Fin 4096 → EReal) : EReal :=
  Ideal.div (∑ k : Fin 4096, (x k - rowMean x) * (x k - rowMean x)) (Ideal.ofBits .f32 0x45800000#32)

/-- The normalised row: deviation times the reciprocal root of (variance + the small constant), times the gain, plus the shift. -/
def lnRow (x nw nb : Fin 4096 → EReal) (k : Fin 4096) : EReal :=
  (x k - rowMean x) * Ideal.rsqrt (rowVar x + Ideal.ofBits .f32 0x3727C5AC#32) * nw k + nb k

/-- The tanh form of the GELU, with the cube written z · (z · z). -/
def gelu (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * (z * (z * z))))))

/-- The same with the cube written (z · z) · z: multiplication of extended reals is commutative. -/
theorem gelu_cube_left (z : EReal) :
    z * (Ideal.ofBits .f32 0x3F000000#32 * (Ideal.ofBits .f32 0x3F800000#32
      + Ideal.tanh (Ideal.ofBits .f32 0x3F4C422A#32 * (z + Ideal.ofBits .f32 0x3D372713#32 * ((z * z) * z))))) = gelu z := by
  unfold gelu; rw [mul_comm (z * z) z]

/-- Hidden column j of a normalised row. -/
def hidden (ln : Fin 4096 → EReal) (W1 : Fin 4096 → Fin 16384 → EReal) (B1 : Fin 16384 → EReal) (j : Fin 16384) : EReal :=
  gelu ((∑ k : Fin 4096, ln k * W1 k j) + B1 j)

/-- Output column h of a row. -/
def rowOut (x nw nb : Fin 4096 → EReal) (W1 : Fin 4096 → Fin 16384 → EReal) (B1 : Fin 16384 → EReal)
    (W2 : Fin 16384 → Fin 4096 → EReal) (ob : Fin 4096 → EReal) (h : Fin 4096) : EReal :=
  ((∑ j : Fin 16384, hidden (lnRow x nw nb) W1 B1 j * W2 j h) + x h) + ob h

/-- Hidden column q of the s-th group of 512 (s is read modulo 32, so every natural number names a group). -/
def col (s : ℕ) (q : Fin 512) : Fin 16384 :=
  ⟨512 * (s % 32) + q.val, by have := Nat.mod_lt s (by norm_num : 32 > 0); have := q.isLt; omega⟩

theorem col_val (s : ℕ) (q : Fin 512) : (col s q).val = 512 * (s % 32) + q.val := rfl

/-- The contribution of the s-th group of 512 hidden columns to output column h. -/
def part (ln : Fin 4096 → EReal) (W1 : Fin 4096 → Fin 16384 → EReal) (B1 : Fin 16384 → EReal)
    (W2 : Fin 16384 → Fin 4096 → EReal) (s : ℕ) (h : Fin 4096) : EReal :=
  ∑ q : Fin 512, hidden ln W1 B1 (col s q) * W2 (col s q) h

/-- The group a natural number names depends on it modulo 32 only. -/
theorem part_mod (ln : Fin 4096 → EReal) (W1 : Fin 4096 → Fin 16384 → EReal) (B1 : Fin 16384 → EReal)
    (W2 : Fin 16384 → Fin 4096 → EReal) (n : ℕ) (h : Fin 4096) :
    part ln W1 B1 W2 (n % 32) h = part ln W1 B1 W2 n h := by
  unfold part
  refine Finset.sum_congr rfl fun q _ => ?_
  have e : col (n % 32) q = col n q := Fin.ext (by
    show 512 * (n % 32 % 32) + q.val = 512 * (n % 32) + q.val
    rw [Nat.mod_mod])
  rw [e]

/-- A sum over the 16384 hidden columns is the sum of the 32 groups' sums. -/
theorem sum_groups {M : Type*} [AddCommMonoid M] (f : Fin 16384 → M) :
    ∑ j : Fin 16384, f j = ∑ s ∈ Finset.range 32, ∑ q : Fin 512, f (col s q) := by
  rw [Cert.LibGemmSplit.sum_blocks (n := 32) (b := 512) (by norm_num) f,
    ← Fin.sum_univ_eq_sum_range (fun s => ∑ q : Fin 512, f (col s q)) 32]
  refine Finset.sum_congr rfl fun c _ => Finset.sum_congr rfl fun q _ => congrArg f (Fin.ext ?_)
  show 512 * c.val + q.val = 512 * (c.val % 32) + q.val
  rw [Nat.mod_eq_of_lt c.isLt]

/-- Thirty-two terms are the first thirty-one and the last. -/
theorem sum_parts_last {M : Type*} [AddCommMonoid M] (P : ℕ → M) :
    ∑ s ∈ Finset.range 32, P s = ∑ s ∈ Finset.range 31, P s + P 31 := Finset.sum_range_succ P 31

/-- So the output is the 32 partial contributions added up, then the row, then the shift. -/
theorem rowOut_eq_parts (x nw nb : Fin 4096 → EReal) (W1 : Fin 4096 → Fin 16384 → EReal) (B1 : Fin 16384 → EReal)
    (W2 : Fin 16384 → Fin 4096 → EReal) (ob : Fin 4096 → EReal) (h : Fin 4096) :
    rowOut x nw nb W1 B1 W2 ob h
      = ((∑ s ∈ Finset.range 32, part (lnRow x nw nb) W1 B1 W2 s h) + x h) + ob h := by
  unfold rowOut part
  rw [sum_groups]

/-! ## The whole layer as one function of the argument arrays

  Nine of the ten arguments are used: two activations a0, a1 of shape 4 × 2048 × 4096 and an input shift a3 (their sum
  is the row that is normalised and added back at the end), the gain a4 and shift a5 of the normalisation, the two weight
  matrices a6 (4096 × 16384) and a8 (16384 × 4096), the hidden shift a7 and the output shift a9. -/

/-- Entry (b, s, h) of the result: output column h of the row (b, s). -/
def layerAt (a0 a1 : (⟨3, ![4, 2048, 4096]⟩ : Shape).Idx → EReal) (a3 a4 a5 : (⟨1, ![4096]⟩ : Shape).Idx → EReal)
    (a6 : (⟨2, ![4096, 16384]⟩ : Shape).Idx → EReal) (a7 : (⟨1, ![16384]⟩ : Shape).Idx → EReal)
    (a8 : (⟨2, ![16384, 4096]⟩ : Shape).Idx → EReal) (a9 : (⟨1, ![4096]⟩ : Shape).Idx → EReal)
    (b : Fin 4) (s : Fin 2048) (h : Fin 4096) : EReal :=
  rowOut (fun k => (a0 (ix3 b s k) + a1 (ix3 b s k)) + a3 (ix1 k)) (fun k => a4 (ix1 k)) (fun k => a5 (ix1 k))
    (fun k j => a6 (ix2 k j)) (fun j => a7 (ix1 j)) (fun j h' => a8 (ix2 j h')) (fun h' => a9 (ix1 h')) h

/-- The result array. -/
def layer (a0 a1 : (⟨3, ![4, 2048, 4096]⟩ : Shape).Idx → EReal) (a3 a4 a5 : (⟨1, ![4096]⟩ : Shape).Idx → EReal)
    (a6 : (⟨2, ![4096, 16384]⟩ : Shape).Idx → EReal) (a7 : (⟨1, ![16384]⟩ : Shape).Idx → EReal)
    (a8 : (⟨2, ![16384, 4096]⟩ : Shape).Idx → EReal) (a9 : (⟨1, ![4096]⟩ : Shape).Idx → EReal) :
    (⟨3, ![4, 2048, 4096]⟩ : Shape).Idx → EReal :=
  fun i => layerAt a0 a1 a3 a4 a5 a6 a7 a8 a9 (i 0) (i 1) (i 2)

theorem layer_ix3 (a0 a1 : (⟨3, ![4, 2048, 4096]⟩ : Shape).Idx → EReal) (a3 a4 a5 : (⟨1, ![4096]⟩ : Shape).Idx → EReal)
    (a6 : (⟨2, ![4096, 16384]⟩ : Shape).Idx → EReal) (a7 : (⟨1, ![16384]⟩ : Shape).Idx → EReal)
    (a8 : (⟨2, ![16384, 4096]⟩ : Shape).Idx → EReal) (a9 : (⟨1, ![4096]⟩ : Shape).Idx → EReal)
    (b : Fin 4) (s : Fin 2048) (h : Fin 4096) :
    layer a0 a1 a3 a4 a5 a6 a7 a8 a9 (ix3 b s h) = layerAt a0 a1 a3 a4 a5 a6 a7 a8 a9 b s h := rfl

/-- Two arrays that agree at every (b, s, h) are equal. -/
theorem ext_ix3 {f g : (⟨3, ![4, 2048, 4096]⟩ : Shape).Idx → EReal}
    (hfg : ∀ (b : Fin 4) (s : Fin 2048) (h : Fin 4096), f (ix3 b s h) = g (ix3 b s h)) : f = g := by
  funext i
  rw [eq_ix3 i]
  exact hfg (i 0) (i 1) (i 2)

end Cert.MlpRow

end
-- ==== Proof.LibColumn.lean ====
/-
  Column vectors and sums along one axis of a matrix, read at an index (general: any extents, no program).

  A sum that keeps its axis (a row sum stored as a column, a column sum stored as one cell) passes through a few
  re-arrangements: a length-a vector viewed as an a × 1 column, a column repeated along every row of an a × b matrix,
  a single cell repeated over a whole matrix, a length-1 vector viewed as a 1 × 1 matrix. Each reads its operand at
  the evident index. At the exact values, summing a matrix along its columns gives each row's sum, and summing a
  column gives the sum of its entries; both as plain finite sums.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Column

open Idealize.ShloMosaic Idealize.ShloMosaic.ValueIdx

variable {α : Type}

/-- A length-a vector viewed as an a × 1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A length-1 vector viewed as a 1 × 1 matrix reads its one entry. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) :=
  (shapeCast_a_1a_apply x h u v).trans (congrArg x (congrArg ix1 (Subsingleton.elim v 0)))

/-- An a × 1 column repeated along the rows of an a × b matrix reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single cell repeated over an a × b matrix reads that cell everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- At the exact values, summing an a × b matrix along its columns gives, at row r, the sum of that row. -/
theorem laneSum_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ v acc h hφ hacc (ix1 r) = ∑ j : Fin b, v (ix2 r j) := by
  refine (Ideal.multiReduction_add_single v acc h hφ hacc (ix1 r)).trans ?_
  refine Finset.sum_congr rfl fun j _ => congrArg v ?_
  funext ax
  match ax with
  | ⟨0, _⟩ => exact Fin.ext rfl
  | ⟨1, _⟩ => exact Fin.ext rfl

/-- At the exact values, summing an a × 1 column along its rows gives the sum of its entries. -/
theorem colSum_apply {a : ℕ} (v : FVec Ideal ⟨2, ![a, 1]⟩ .f32) (acc : BitVec 32)
    (h : (⟨2, ![a, 1]⟩ : Shape).Reduces [0] ⟨1, ![1]⟩) (hφ : FKind.Formats .f32)
    (hacc : acc = FKind.add.neutral .f32 hφ) (u : Fin 1) :
    multiReduction .add [0] ⟨1, ![1]⟩ v acc h hφ hacc (ix1 u) = ∑ r : Fin a, v (ix2 r (0 : Fin 1)) := by
  refine (Ideal.multiReduction_add_single v acc h hφ hacc (ix1 u)).trans ?_
  refine Finset.sum_congr rfl fun r _ => congrArg v ?_
  funext ax
  match ax with
  | ⟨0, _⟩ => exact Fin.ext rfl
  | ⟨1, _⟩ => exact Fin.ext (by show u.val = 0; omega)

end Cert.Column

end
-- ==== Proof.LibPlainMatmul.lean ====
/-
  A matrix product into a zero accumulator, read at one entry, over the extended reals.

  For any extents M, K, N: the product of an M×K matrix and a K×N matrix with the plain dimension numbers (the left
  operand's axis 1 contracted with the right operand's axis 0, no batch axes), accumulated into the zero matrix, is at
  entry (p, n) the sum over k of left(p, k) · right(k, n). The accumulator contributes 0 + ·, the contraction index
  of the product is one coordinate k, and the operand indices at (p, n) and k are (p, k) and (k, n).
-/
import Idealize.ShloMosaic.Lib.ValueIdx
import Idealize.ShloMosaic.PureOps.Ideal.Laws

namespace Cert.LibPlainMatmul

open Idealize.ShloMosaic Idealize.ShloMosaic.ValueIdx

/-- The left operand's index at result entry `(p, n)` and contraction coordinate `k` is `(p, k)`. -/
theorem plain_lhsIdx {M K N : ℕ} (p : Fin M) (n : Fin N) (k : Fin K) :
    (DotDims.plain M K N).lhsIdx (ix2 p n) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl _ _).trans
        (contrEquiv1_symm_val (DotDims.plain M K N) K rfl rfl k))

/-- The right operand's index at result entry `(p, n)` and contraction coordinate `k` is `(k, n)`. -/
theorem plain_rhsIdx {M K N : ℕ} (p : Fin M) (n : Fin N) (k : Fin K) :
    (DotDims.plain M K N).rhsIdx (ix2 p n) ((contrEquiv1 (DotDims.plain M K N) K rfl rfl).symm k) = ix2 k n :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => rfl)

/-- An M×K matrix times a K×N matrix into the zero accumulator, at entry `(p, n)`: `∑ k, l (p, k) * r (k, n)`. -/
theorem matmul_plain_zero_apply {M K N : ℕ} {φ₁ φ₂ : FTy} (prec : Option ContractPrecision)
    (l : FVec Ideal ⟨2, ![M, K]⟩ φ₁) (r : FVec Ideal ⟨2, ![K, N]⟩ φ₂) (p : Fin M) (n : Fin N) :
    matmul (DotDims.plain M K N) prec l r (constant (F := Ideal) ⟨2, ![M, N]⟩ .f32 0x00000000#32) (ix2 p n)
      = ∑ k : Fin K, l (ix2 p k) * r (ix2 k n) := by
  show FloatOps.matmul _ _ _ _ _ _ = _
  rw [Ideal.matmul_constant_zero_apply, ← Equiv.sum_comp (contrEquiv1 (DotDims.plain M K N) K rfl rfl).symm]
  refine Finset.sum_congr rfl fun k _ => ?_
  rw [plain_lhsIdx, plain_rhsIdx]

/-- The same for any dimension-numbers record `D` that is the plain one (a printed program names its own record). -/
theorem matmul_eq_plain_zero_apply {M K N : ℕ} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (n : Fin N) :
    matmul D prec l r (constant (F := Ideal) ⟨2, ![M, N]⟩ .f32 0x00000000#32) (ix2 p n)
      = ∑ k : Fin K, l (ix2 p k) * r (ix2 k n) := by
  subst hD; exact matmul_plain_zero_apply prec l r p n

end Cert.LibPlainMatmul
-- ==== Proof.Payload.lean ====
/-
  The arithmetic of one step, read entry by entry over the extended reals.

  • the normalising arithmetic, at row p and column k of a 256 × 4096 tile, is the normalised row of Spec.lean taken of
    row p of the tile: the two lane sums are sums over the row's 4096 entries, the kept column of means (and of
    reciprocal roots) is read back at row p, the gain and the shift are read at column k;
  • the contributing arithmetic, at row p and output column h, is the running value plus the sum over the group's 512
    hidden columns q of gelu(∑ k, s(p,k) · w1(k,q) + b1(q)) · w2(q,h): both products start from a zero accumulator, so
    each is a plain sum over the contracted axis;
  • the finishing arithmetic adds the row tile and the output shift; the zero block is zero.

  A change of number format is the identity on the extended reals, so the 16-bit copies read as the values they copy.
-/
import proofs.«122750_j77189152243985_2_alg».proof.Proof.Gen.KernelIdeal.Skeleton
import proofs.«122750_j77189152243985_2_alg».proof.Proof.Spec
import proofs.«122750_j77189152243985_2_alg».proof.Proof.LibColumn
import proofs.«122750_j77189152243985_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Payload
open Cert.KernelIdeal Cert.KernelIdeal.Gen Cert.MlpRow

/-- The reciprocal square root acts entry by entry. -/
theorem rsqrt_apply {s : Shape} (v : FVec Ideal s .f32) (i : s.Idx) : rsqrt v i = Ideal.rsqrt (v i) := rfl
/-- The hyperbolic tangent acts entry by entry. -/
theorem tanh_apply {s : Shape} (v : FVec Ideal s .f32) (i : s.Idx) : tanh v i = Ideal.tanh (v i) := rfl
/-- A scalar constant is the extended real its binary word denotes. -/
theorem scalar_ofBits (b : BitVec 32) : Scalar.ofBits (F := Ideal) .f32 b = Ideal.ofBits .f32 b := rfl

/-- A row of a 256 × 4096 tile summed along its 4096 columns. -/
theorem rowSum_apply (v : FVec Ideal S256x4096 .f32) (h : S256x4096.Reduces [1] S256) (hφ : FKind.Formats .f32)
    (hacc : (0x00000000#32 : BitVec 32) = 0x00000000#32) (p : Fin 256) :
    multiReduction .add [1] S256 v 0x00000000#32 h hφ hacc (ix1 p) = ∑ j : Fin 4096, v (ix2 p j) :=
  Cert.Column.laneSum_apply v 0x00000000#32 h hφ hacc p

/-- The normalising arithmetic at (p, k): the normalised row p, at k. -/
theorem pay2_apply (x0 : Vec Ideal S256x4096 .f32) (x1 x2 : Vec Ideal S1x4096 .f32) (p : Fin 256) (k : Fin 4096) :
    k0_pay2 (F := Ideal) x0 x1 x2 (ix2 p k)
      = lnRow (fun k' => x0 (ix2 p k')) (fun k' => x1 (ix2 (0 : Fin 1) k')) (fun k' => x2 (ix2 (0 : Fin 1) k')) k := by
  unfold k0_pay2
  dsimp only
  simp only [shapeCast_self, truncf_apply, addf_apply, mulf_apply, subf_apply, divf_apply, broadcast_apply, rsqrt_apply,
    scalar_ofBits, Cert.Column.broadcastTo_a1_ab_apply, broadcastTo_1b_ab_apply,
    Cert.Column.shapeCast_a_a1_apply]
  rw [rowSum_apply, rowSum_apply]
  simp only [mulf_apply, subf_apply, divf_apply, broadcast_apply, Cert.Column.broadcastTo_a1_ab_apply,
    Cert.Column.shapeCast_a_a1_apply]
  rw [rowSum_apply]
  rfl

/-- The contributing arithmetic at (p, h): the running value plus the group's 512 terms. -/
theorem pay4_apply (s : Vec Ideal S256x4096 .bf16) (w1 : Vec Ideal S4096x512 .bf16) (b1 : Vec Ideal S1x512 .f32)
    (w2 : Vec Ideal S512x4096 .bf16) (acc : Vec Ideal S256x4096 .f32) (p : Fin 256) (h : Fin 4096) :
    k0_pay4 (F := Ideal) s w1 b1 w2 acc (ix2 p h)
      = acc (ix2 p h) + ∑ q : Fin 512,
          gelu ((∑ k : Fin 4096, s (ix2 p k) * w1 (ix2 k q)) + b1 (ix2 (0 : Fin 1) q)) * w2 (ix2 q h) := by
  unfold k0_pay4
  simp only [shapeCast_self, addf_apply]
  congr 1
  refine (Cert.LibPlainMatmul.matmul_eq_plain_zero_apply (φ₁ := .bf16) (φ₂ := .bf16) dot_S256x512_S512x4096_S256x4096_1_0_0_1_n_n rfl none _ w2 p h).trans ?_
  refine Finset.sum_congr rfl fun q _ => ?_
  simp only [truncf_apply, mulf_apply, addf_apply, tanh_apply, broadcast_apply, scalar_ofBits,
    broadcastTo_1b_ab_apply]
  rw [Cert.LibPlainMatmul.matmul_eq_plain_zero_apply (φ₁ := .bf16) (φ₂ := .bf16) dot_S256x4096_S4096x512_S256x512_1_0_0_1_n_n rfl none s w1 p q]
  rfl

/-- The finishing arithmetic at (p, h): plus the row tile, plus the output shift. -/
theorem pay1_apply (o r : Vec Ideal S256x4096 .f32) (ob : Vec Ideal S1x4096 .f32) (p : Fin 256) (h : Fin 4096) :
    k0_pay1 (F := Ideal) o r ob (ix2 p h) = (o (ix2 p h) + r (ix2 p h)) + ob (ix2 (0 : Fin 1) h) := by
  unfold k0_pay1
  simp only [shapeCast_self, addf_apply, broadcastTo_1b_ab_apply]

/-- The zero block. -/
theorem pay3_apply (y : S256x4096.Idx) : k0_pay3 (F := Ideal) y = 0 := by
  unfold k0_pay3
  exact Ideal.ofBits_zero_f32

/-- The normalising arithmetic on a tile whose row p is x, with gain nw and shift nb: the normalised row. -/
theorem pay2_ln (x0 : Vec Ideal S256x4096 .f32) (x1 x2 : Vec Ideal S1x4096 .f32) (x nw nb : Fin 4096 → EReal)
    (p : Fin 256) (k : Fin 4096) (hx : ∀ k', x0 (ix2 p k') = x k') (h1 : ∀ k', x1 (ix2 (0 : Fin 1) k') = nw k')
    (h2 : ∀ k', x2 (ix2 (0 : Fin 1) k') = nb k') :
    k0_pay2 (F := Ideal) x0 x1 x2 (ix2 p k) = lnRow x nw nb k := by
  rw [pay2_apply, funext hx, funext h1, funext h2]

/-- The contributing arithmetic on the n-th group's blocks of the weights and the hidden shift: the running value plus
    that group's contribution. -/
theorem pay4_part (s : Vec Ideal S256x4096 .bf16) (w1 : Vec Ideal S4096x512 .bf16) (b1 : Vec Ideal S1x512 .f32)
    (w2 : Vec Ideal S512x4096 .bf16) (acc : Vec Ideal S256x4096 .f32) (ln : Fin 4096 → EReal)
    (W1 : Fin 4096 → Fin 16384 → EReal) (B1 : Fin 16384 → EReal) (W2 : Fin 16384 → Fin 4096 → EReal)
    (n : ℕ) (p : Fin 256) (h : Fin 4096) (hs : ∀ k, s (ix2 p k) = ln k)
    (hw1 : ∀ k q, w1 (ix2 k q) = W1 k (col n q)) (hb1 : ∀ q, b1 (ix2 (0 : Fin 1) q) = B1 (col n q))
    (hw2 : ∀ q, w2 (ix2 q h) = W2 (col n q) h) :
    k0_pay4 (F := Ideal) s w1 b1 w2 acc (ix2 p h) = acc (ix2 p h) + part ln W1 B1 W2 n h := by
  rw [pay4_apply]
  unfold part Cert.MlpRow.hidden
  congr 1
  refine Finset.sum_congr rfl fun q _ => ?_
  have e : (∑ k : Fin 4096, s (ix2 p k) * w1 (ix2 k q)) = ∑ k : Fin 4096, ln k * W1 k (col n q) :=
    Finset.sum_congr rfl fun k _ => by rw [hs k, hw1 k q]
  rw [e, hb1 q, hw2 q]

end Cert.KernelIdeal.Payload
end
-- ==== Proof.GridIndex.lean ====
/-
  Which block of each array a step works on. The 1024 steps are numbered t = 32 · a + s, with a the row tile
  (256 rows) and s the group of 512 hidden columns: the row tile and the output block are at block row a = t / 32; the
  first weight matrix and the hidden shift are at block column s = t % 32, the second weight matrix at block row s; the
  gain, the two shifts of 4096 entries are whole. Each fact is decided once over the 1024 steps.
-/
import proofs.«122750_j77189152243985_2_alg».proof.Proof.Gen.KernelIdeal.Points

noncomputable section

open Idealize.ShloMosaic

namespace Cert.KernelIdeal.GridIndex
open Cert.KernelIdeal Cert.KernelIdeal.Gen

/-- The row tile is at block (t / 32, 0). -/
theorem idx0 : ∀ t : Fin cfg0.N, win0_0.index t 0 = t.val / 32 ∧ win0_0.index t 1 = 0 :=
  (by decide +kernel : ∀ t : Fin grid0.N, win0_0.index t 0 = t.val / 32 ∧ win0_0.index t 1 = 0)
/-- The gain is whole. -/
theorem idx1 : ∀ t : Fin cfg0.N, win0_1.index t 0 = 0 ∧ win0_1.index t 1 = 0 :=
  (by decide +kernel : ∀ t : Fin grid0.N, win0_1.index t 0 = 0 ∧ win0_1.index t 1 = 0)
/-- The normalisation's shift is whole. -/
theorem idx2 : ∀ t : Fin cfg0.N, win0_2.index t 0 = 0 ∧ win0_2.index t 1 = 0 :=
  (by decide +kernel : ∀ t : Fin grid0.N, win0_2.index t 0 = 0 ∧ win0_2.index t 1 = 0)
/-- The first weight matrix is at block (0, t % 32). -/
theorem idx3 : ∀ t : Fin cfg0.N, win0_3.index t 0 = 0 ∧ win0_3.index t 1 = t.val % 32 :=
  (by decide +kernel : ∀ t : Fin grid0.N, win0_3.index t 0 = 0 ∧ win0_3.index t 1 = t.val % 32)
/-- The hidden shift is at block (0, t % 32). -/
theorem idx4 : ∀ t : Fin cfg0.N, win0_4.index t 0 = 0 ∧ win0_4.index t 1 = t.val % 32 :=
  (by decide +kernel : ∀ t : Fin grid0.N, win0_4.index t 0 = 0 ∧ win0_4.index t 1 = t.val % 32)
/-- The second weight matrix is at block (t % 32, 0). -/
theorem idx5 : ∀ t : Fin cfg0.N, win0_5.index t 0 = t.val % 32 ∧ win0_5.index t 1 = 0 :=
  (by decide +kernel : ∀ t : Fin grid0.N, win0_5.index t 0 = t.val % 32 ∧ win0_5.index t 1 = 0)
/-- The output shift is whole. -/
theorem idx6 : ∀ t : Fin cfg0.N, win0_6.index t 0 = 0 ∧ win0_6.index t 1 = 0 :=
  (by decide +kernel : ∀ t : Fin grid0.N, win0_6.index t 0 = 0 ∧ win0_6.index t 1 = 0)
/-- The output block is at block (t / 32, 0). -/
theorem idx7 : ∀ t : Fin cfg0.N, win0_7.index t 0 = t.val / 32 ∧ win0_7.index t 1 = 0 :=
  (by decide +kernel : ∀ t : Fin grid0.N, win0_7.index t 0 = t.val / 32 ∧ win0_7.index t 1 = 0)

end Cert.KernelIdeal.GridIndex

end
-- ==== Proof.LibRelayout.lean ====
/-
  Re-laid arrays read at an index given by coordinates, for any extents: the shape casts and broadcasts that a
  projection of a [1, a, 1, b] or [1, 1, a, b] block to a matrix, a sum of an [a, 1, c] and a [1, b, c] array
  over [a, b, c], and the flattening of [a, b, c] to [a * b, c] (and back) go through.

  • `shapeCast_1a1b_ab_apply`, `shapeCast_11ab_ab_apply`: a block with unit axes cast to the matrix of its two
    real axes reads, at (i, j), the operand at (0, i, 0, j), respectively (0, 0, i, j).
  • `shapeCast_ab_a1b_apply`: a matrix cast to [a, 1, b] reads, at (i, z, j), the operand at (i, j).
  • `broadcastTo_a1c_abc_apply`, `broadcastTo_1bc_abc_apply`: an array with a unit middle (leading) axis broadcast
    along it reads, at (i, k, j), the operand at (i, 0, j), respectively (0, k, j).
  • `shapeCast_abc_nc_apply`, `shapeCast_nc_abc_apply`: [a, b, c] flattened to [n, c] with n = a * b, and back:
    row r = i * b + k of the flat array is row (i, k) of the other.
  Each is the library's general lemma for the operation with the row-major, or per-axis, arithmetic done.
-/
import Idealize.ShloMosaic.Lib.ValueLayout

namespace Cert.LibRelayout

open Idealize.ShloMosaic Idealize.ShloMosaic.ValueIdx

variable {α : Type}

/-- A `[1, a, 1, b]` array cast to `[a, b]` reads, at `(i, j)`, the operand at `(0, i, 0, j)`. -/
theorem shapeCast_1a1b_ab_apply {a b : ℕ} (x : (⟨4, ![1, a, 1, b]⟩ : Shape).Idx → α)
    (h : (⟨4, ![1, a, 1, b]⟩ : Shape).ShapeCasts ⟨2, ![a, b]⟩) (i : Fin a) (j : Fin b) :
    shapeCast ⟨2, ![a, b]⟩ x h (ix2 i j) = x (ix4 (0 : Fin 1) i (0 : Fin 1) j) :=
  shapeCast_apply x h _ _ (by
    rw [Shape.rowMajor_val_four, Shape.rowMajor_val_two]
    show ((0 * a + i.val) * 1 + 0) * b + j.val = i.val * b + j.val
    simp only [Nat.zero_mul, Nat.zero_add, Nat.mul_one, Nat.add_zero])

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.mul_one, Nat.add_zero])

/-- An `[a, b]` array cast to `[a, 1, b]` reads, at `(i, z, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (z : Fin 1) (j : Fin b) :
    shapeCast ⟨3, ![a, 1, b]⟩ x h (ix3 i z j) = x (ix2 i j) :=
  shapeCast_apply x h _ _ (by
    have hz : z.val = 0 := by omega
    rw [Shape.rowMajor_val_three, Shape.rowMajor_val_two]
    show i.val * b + j.val = (i.val * 1 + z.val) * b + j.val
    rw [hz, Nat.mul_one, Nat.add_zero])

/-- An `[a, 1, c]` array broadcast to `[a, b, c]` reads, at `(i, k, j)`, the operand at `(i, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(i, k, j)`, the operand at `(0, k, j)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (k : Fin b) (j : Fin c) :
    broadcastTo ⟨3, ![a, b, c]⟩ v h (ix3 i k j) = v (ix3 (0 : Fin 1) k j) := by
  refine broadcastTo_apply v h (ix3 i k j) (ix3 (0 : Fin 1) k j) fun ax => ?_
  match ax with
  | ⟨0, _⟩ => rfl
  | ⟨1, _⟩ =>
    show k.val = if b = 1 then 0 else k.val
    split
    · have := k.isLt; omega
    · rfl
  | ⟨2, _⟩ =>
    show j.val = if c = 1 then 0 else j.val
    split
    · have := j.isLt; omega
    · rfl

/-- An `[a, b, c]` array flattened to `[n, c]` (so `n = a * b`) reads, at row `r = i * b + k` and column `j`, the
    operand at `(i, k, j)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (k : Fin b) (j : Fin c) (r : Fin n)
    (hr : r.val = i.val * b + k.val) : shapeCast ⟨2, ![n, c]⟩ x h (ix2 r j) = x (ix3 i k j) :=
  shapeCast_apply x h _ _ (by
    rw [Shape.rowMajor_val_three, Shape.rowMajor_val_two]
    show (i.val * b + k.val) * c + j.val = r.val * c + j.val
    rw [hr])

/-- An `[n, c]` array cast to `[a, b, c]` (so `n = a * b`) reads, at `(i, k, j)`, the operand at row
    `r = i * b + k` and column `j`. -/
theorem shapeCast_nc_abc_apply {a b c n : ℕ} (x : (⟨2, ![n, c]⟩ : Shape).Idx → α)
    (h : (⟨2, ![n, c]⟩ : Shape).ShapeCasts ⟨3, ![a, b, c]⟩) (i : Fin a) (k : Fin b) (j : Fin c) (r : Fin n)
    (hr : r.val = i.val * b + k.val) : shapeCast ⟨3, ![a, b, c]⟩ x h (ix3 i k j) = x (ix2 r j) :=
  shapeCast_apply x h _ _ (by
    rw [Shape.rowMajor_val_two, Shape.rowMajor_val_three]
    show r.val * c + j.val = (i.val * b + k.val) * c + j.val
    rw [hr])

end Cert.LibRelayout
-- ==== Proof.Blocks.lean ====
/-
  What each step reads, as entries of the argument arrays.

  First, for any number format, entry (p, k) of the block a step holds of each array is an entry of the whole array: row
  256 · (t / 32) + p of the summed input, column (or row) 512 · (t % 32) + q of the two weight matrices and of the
  hidden shift, and the gain and the two shifts of 4096 entries whole. Then, at the exact values, the arrays the steps
  read are computed from the arguments by a few re-layings: the summed input is the two activations plus the input
  shift, its 4 × 2048 rows laid out as 8192; the three vectors become rows; the weight matrices' 16-bit copies read
  as the matrices.
-/
import proofs.«122750_j77189152243985_2_alg».proof.Proof.Gen.KernelIdeal.Frame
import proofs.«122750_j77189152243985_2_alg».proof.Proof.Spec
import proofs.«122750_j77189152243985_2_alg».proof.Proof.GridIndex
import proofs.«122750_j77189152243985_2_alg».proof.Proof.LibRelayout
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Blocks
open Cert.KernelIdeal Cert.KernelIdeal.Gen Cert.KernelIdeal.GridIndex

variable {F : FTy → Type} [FloatOps F]
variable (m : (ℓ : Loc nD τ sig) → Buf (Elt F) ℓ)

/-- Row p of the row tile at step t is row 256 · (t / 32) + p of the whole array. -/
theorem iblk0_apply (c : Dev nD) (t : Fin cfg0.N) (p : Fin 256) (k : Fin 4096) (r : Fin 8192)
    (hr : r.val = 256 * (t.val / 32) + p.val) :
    (iblk m c 0 t : Vec F S256x4096 .f32) (ix2 p k) = (V m c main_v4 : Vec F S8192x4096 .f32) (ix2 r k) := by
  unfold iblk
  rw [View.read_apply]
  show V m c main_v4 _ = V m c main_v4 _
  congr 1
  funext a
  apply Fin.ext
  match a with
  | ⟨0, _⟩ => show win0_0.index t 0 * 256 + 1 * p.val = r.val; rw [(idx0 t).1, hr]; omega
  | ⟨1, _⟩ => show win0_0.index t 1 * 4096 + 1 * k.val = k.val; rw [(idx0 t).2]; omega

/-- The gain is read whole. -/
theorem iblk1_apply (c : Dev nD) (t : Fin cfg0.N) (k : Fin 4096) :
    (iblk m c 1 t : Vec F S1x4096 .f32) (ix2 (0 : Fin 1) k) = (V m c main_v5 : Vec F S1x4096 .f32) (ix2 (0 : Fin 1) k) := by
  unfold iblk
  rw [View.read_apply]
  show V m c main_v5 _ = V m c main_v5 _
  congr 1
  funext a
  apply Fin.ext
  match a with
  | ⟨0, _⟩ => show win0_1.index t 0 * 1 + 1 * 0 = 0; rw [(idx1 t).1]
  | ⟨1, _⟩ => show win0_1.index t 1 * 4096 + 1 * k.val = k.val; rw [(idx1 t).2]; omega

/-- The normalisation's shift is read whole. -/
theorem iblk2_apply (c : Dev nD) (t : Fin cfg0.N) (k : Fin 4096) :
    (iblk m c 2 t : Vec F S1x4096 .f32) (ix2 (0 : Fin 1) k) = (V m c main_v6 : Vec F S1x4096 .f32) (ix2 (0 : Fin 1) k) := by
  unfold iblk
  rw [View.read_apply]
  show V m c main_v6 _ = V m c main_v6 _
  congr 1
  funext a
  apply Fin.ext
  match a with
  | ⟨0, _⟩ => show win0_2.index t 0 * 1 + 1 * 0 = 0; rw [(idx2 t).1]
  | ⟨1, _⟩ => show win0_2.index t 1 * 4096 + 1 * k.val = k.val; rw [(idx2 t).2]; omega

/-- Column q of the first weight block at step t is column 512 · (t % 32) + q of the whole matrix. -/
theorem iblk3_apply (c : Dev nD) (t : Fin cfg0.N) (k : Fin 4096) (q : Fin 512) (j : Fin 16384)
    (hj : j.val = 512 * (t.val % 32) + q.val) :
    (iblk m c 3 t : Vec F S4096x512 .bf16) (ix2 k q) = (V m c main_v9 : Vec F S4096x16384 .bf16) (ix2 k j) := by
  unfold iblk
  rw [View.read_apply]
  show V m c main_v9 _ = V m c main_v9 _
  congr 1
  funext a
  apply Fin.ext
  match a with
  | ⟨0, _⟩ => show win0_3.index t 0 * 4096 + 1 * k.val = k.val; rw [(idx3 t).1]; omega
  | ⟨1, _⟩ => show win0_3.index t 1 * 512 + 1 * q.val = j.val; rw [(idx3 t).2, hj]; omega

/-- The same for the hidden shift. -/
theorem iblk4_apply (c : Dev nD) (t : Fin cfg0.N) (q : Fin 512) (j : Fin 16384)
    (hj : j.val = 512 * (t.val % 32) + q.val) :
    (iblk m c 4 t : Vec F S1x512 .f32) (ix2 (0 : Fin 1) q) = (V m c main_v7 : Vec F S1x16384 .f32) (ix2 (0 : Fin 1) j) := by
  unfold iblk
  rw [View.read_apply]
  show V m c main_v7 _ = V m c main_v7 _
  congr 1
  funext a
  apply Fin.ext
  match a with
  | ⟨0, _⟩ => show win0_4.index t 0 * 1 + 1 * 0 = 0; rw [(idx4 t).1]
  | ⟨1, _⟩ => show win0_4.index t 1 * 512 + 1 * q.val = j.val; rw [(idx4 t).2, hj]; omega

/-- Row q of the second weight block at step t is row 512 · (t % 32) + q of the whole matrix. -/
theorem iblk5_apply (c : Dev nD) (t : Fin cfg0.N) (q : Fin 512) (h : Fin 4096) (j : Fin 16384)
    (hj : j.val = 512 * (t.val % 32) + q.val) :
    (iblk m c 5 t : Vec F S512x4096 .bf16) (ix2 q h) = (V m c main_v10 : Vec F S16384x4096 .bf16) (ix2 j h) := by
  unfold iblk
  rw [View.read_apply]
  show V m c main_v10 _ = V m c main_v10 _
  congr 1
  funext a
  apply Fin.ext
  match a with
  | ⟨0, _⟩ => show win0_5.index t 0 * 512 + 1 * q.val = j.val; rw [(idx5 t).1, hj]; omega
  | ⟨1, _⟩ => show win0_5.index t 1 * 4096 + 1 * h.val = h.val; rw [(idx5 t).2]; omega

/-- The output shift is read whole. -/
theorem iblk6_apply (c : Dev nD) (t : Fin cfg0.N) (h : Fin 4096) :
    (iblk m c 6 t : Vec F S1x4096 .f32) (ix2 (0 : Fin 1) h) = (V m c main_v8 : Vec F S1x4096 .f32) (ix2 (0 : Fin 1) h) := by
  unfold iblk
  rw [View.read_apply]
  show V m c main_v8 _ = V m c main_v8 _
  congr 1
  funext a
  apply Fin.ext
  match a with
  | ⟨0, _⟩ => show win0_6.index t 0 * 1 + 1 * 0 = 0; rw [(idx6 t).1]
  | ⟨1, _⟩ => show win0_6.index t 1 * 4096 + 1 * h.val = h.val; rw [(idx6 t).2]; omega

/-! ## The arrays the steps read, as functions of the arguments (at the exact values) -/

section Arrays

variable (mi : (ℓ : Loc nD τ sig) → Buf (Elt Ideal) ℓ) (c : Dev nD)

/-- The argument arrays, typed as arrays of extended reals. -/
abbrev a0 : FVec Ideal S4x2048x4096 .f32 := mi ((c : Thread nD τ).loc main_arg0)
abbrev a1 : FVec Ideal S4x2048x4096 .f32 := mi ((c : Thread nD τ).loc main_arg1)
abbrev a3 : FVec Ideal S4096 .f32 := mi ((c : Thread nD τ).loc main_arg3)
abbrev a4 : FVec Ideal S4096 .f32 := mi ((c : Thread nD τ).loc main_arg4)
abbrev a5 : FVec Ideal S4096 .f32 := mi ((c : Thread nD τ).loc main_arg5)
abbrev a6 : FVec Ideal S4096x16384 .f32 := mi ((c : Thread nD τ).loc main_arg6)
abbrev a7 : FVec Ideal S16384 .f32 := mi ((c : Thread nD τ).loc main_arg7)
abbrev a8 : FVec Ideal S16384x4096 .f32 := mi ((c : Thread nD τ).loc main_arg8)
abbrev a9 : FVec Ideal S4096 .f32 := mi ((c : Thread nD τ).loc main_arg9)

/-- The summed input, as the steps find it: the sum of the two activations and the shift, 4 × 2048 rows laid out as 8192. -/
theorem V_v4_eq : (V mi c main_v4 : S8192x4096.Idx → EReal)
    = shapeCast S8192x4096 (addf (addf (a0 mi c) (a1 mi c))
        (broadcastInDim S4x2048x4096 ![0, 1, 2] bcast_S1x1x4096_S4x2048x4096_0_1_2
          (broadcastInDim S1x1x4096 ![2] bcast_S4096_S1x1x4096_2 (a3 mi c))))
        shapeCasts_S4x2048x4096_S8192x4096 := by
  show StableHlo.after hostOps0 (fun b => mi (c, b)) (Proc.devRef .tc main_v4) = _
  after_results
  try rfl

/-- The gain as a 1 × 4096 row. -/
theorem V_v5_eq : (V mi c main_v5 : S1x4096.Idx → EReal) = shapeCast S1x4096 (a4 mi c) shapeCasts_S4096_S1x4096 := by
  show StableHlo.after hostOps0 (fun b => mi (c, b)) (Proc.devRef .tc main_v5) = _
  after_results
  try rfl

/-- The normalisation's shift as a 1 × 4096 row. -/
theorem V_v6_eq : (V mi c main_v6 : S1x4096.Idx → EReal) = shapeCast S1x4096 (a5 mi c) shapeCasts_S4096_S1x4096 := by
  show StableHlo.after hostOps0 (fun b => mi (c, b)) (Proc.devRef .tc main_v6) = _
  after_results
  try rfl

/-- The hidden shift as a 1 × 16384 row. -/
theorem V_v7_eq : (V mi c main_v7 : S1x16384.Idx → EReal) = shapeCast S1x16384 (a7 mi c) shapeCasts_S16384_S1x16384 := by
  show StableHlo.after hostOps0 (fun b => mi (c, b)) (Proc.devRef .tc main_v7) = _
  after_results
  try rfl

/-- The output shift as a 1 × 4096 row. -/
theorem V_v8_eq : (V mi c main_v8 : S1x4096.Idx → EReal) = shapeCast S1x4096 (a9 mi c) shapeCasts_S4096_S1x4096 := by
  show StableHlo.after hostOps0 (fun b => mi (c, b)) (Proc.devRef .tc main_v8) = _
  after_results
  try rfl

/-- The first weight matrix's 16-bit copy. -/
theorem V_v9_eq : (V mi c main_v9 : S4096x16384.Idx → EReal) = truncf .bf16 (a6 mi c) bitsLt_bf16_f32 := by
  show StableHlo.after hostOps0 (fun b => mi (c, b)) (Proc.devRef .tc main_v9) = _
  after_results
  try rfl

/-- The second weight matrix's 16-bit copy. -/
theorem V_v10_eq : (V mi c main_v10 : S16384x4096.Idx → EReal) = truncf .bf16 (a8 mi c) bitsLt_bf16_f32 := by
  show StableHlo.after hostOps0 (fun b => mi (c, b)) (Proc.devRef .tc main_v10) = _
  after_results
  try rfl

end Arrays

section ArraysAt

variable (mi : (ℓ : Loc nD τ sig) → Buf (Elt Ideal) ℓ) (c : Dev nD)

/-- Row r = 2048 · b + s of the summed input: the two activations at (b, s, k) added, then the input shift at k. -/
theorem V_v4_apply (b : Fin 4) (s : Fin 2048) (k : Fin 4096) (r : Fin 8192) (hr : r.val = b.val * 2048 + s.val) :
    (V mi c main_v4 : S8192x4096.Idx → EReal) (ix2 r k)
      = (a0 mi c (ix3 b s k) + a1 mi c (ix3 b s k)) + a3 mi c (ix1 k) := by
  rw [V_v4_eq]
  refine (Cert.LibRelayout.shapeCast_abc_nc_apply _ _ b s k r hr).trans ?_
  show (a0 mi c (ix3 b s k) + a1 mi c (ix3 b s k))
    + broadcastInDim S4x2048x4096 ![0, 1, 2] bcast_S1x1x4096_S4x2048x4096_0_1_2
        (broadcastInDim S1x1x4096 ![2] bcast_S4096_S1x1x4096_2 (a3 mi c)) (ix3 b s k) = _
  congr 1
  refine (broadcastInDim_apply _ bcast_S1x1x4096_S4x2048x4096_0_1_2 _ (ix3 b s k) (ix3 (0 : Fin 1) (0 : Fin 1) k)
    (fun a => ?_)).trans ?_
  · match a with
    | ⟨0, _⟩ => show 0 = if (1 : Nat) = 1 then 0 else b.val; rw [if_pos rfl]
    | ⟨1, _⟩ => show 0 = if (1 : Nat) = 1 then 0 else s.val; rw [if_pos rfl]
    | ⟨2, _⟩ => show k.val = if (4096 : Nat) = 1 then 0 else k.val; rw [if_neg (by decide)]
  · exact broadcastInDim_apply _ bcast_S4096_S1x1x4096_2 _ (ix3 (0 : Fin 1) (0 : Fin 1) k) (ix1 k) (fun a => match a with
      | ⟨0, _⟩ => by show k.val = if (4096 : Nat) = 1 then 0 else k.val; rw [if_neg (by decide)])

/-- The gain as a row. -/
theorem V_v5_apply (k : Fin 4096) : (V mi c main_v5 : S1x4096.Idx → EReal) (ix2 (0 : Fin 1) k) = a4 mi c (ix1 k) := by
  rw [V_v5_eq]; exact shapeCast_a_1a_apply _ _ 0 k

/-- The normalisation's shift as a row. -/
theorem V_v6_apply (k : Fin 4096) : (V mi c main_v6 : S1x4096.Idx → EReal) (ix2 (0 : Fin 1) k) = a5 mi c (ix1 k) := by
  rw [V_v6_eq]; exact shapeCast_a_1a_apply _ _ 0 k

/-- The hidden shift as a row. -/
theorem V_v7_apply (j : Fin 16384) : (V mi c main_v7 : S1x16384.Idx → EReal) (ix2 (0 : Fin 1) j) = a7 mi c (ix1 j) := by
  rw [V_v7_eq]; exact shapeCast_a_1a_apply _ _ 0 j

/-- The output shift as a row. -/
theorem V_v8_apply (h : Fin 4096) : (V mi c main_v8 : S1x4096.Idx → EReal) (ix2 (0 : Fin 1) h) = a9 mi c (ix1 h) := by
  rw [V_v8_eq]; exact shapeCast_a_1a_apply _ _ 0 h

/-- The first weight matrix: its 16-bit copy reads as the matrix. -/
theorem V_v9_apply (k : Fin 4096) (j : Fin 16384) : (V mi c main_v9 : S4096x16384.Idx → EReal) (ix2 k j) = a6 mi c (ix2 k j) := by
  rw [V_v9_eq]; rfl

/-- The second weight matrix: its 16-bit copy reads as the matrix. -/
theorem V_v10_apply (j : Fin 16384) (h : Fin 4096) : (V mi c main_v10 : S16384x4096.Idx → EReal) (ix2 j h) = a8 mi c (ix2 j h) := by
  rw [V_v10_eq]; rfl

end ArraysAt

end Cert.KernelIdeal.Blocks
end
-- ==== Proof.Accum.lean ====
/-
  The running output block and the carried normalised rows, step by step.

  The 1024 steps are numbered n = 32 · a + s: a is the row tile, s the group of 512 hidden columns. Row p of tile a is
  row (b, s') of the 4 × 2048 rows with b = (n / 256) % 4 and s' = 256 · ((n / 32) % 8) + p. After step n

    • the carried rows hold the normalised rows of the tile, and
    • the output block holds, at (p, h), the sum of the contributions of the groups 0 … n % 32 to output column h of that
      row — and, after the last group (n % 32 = 31), the finished entry: that sum plus the row plus the output shift,
      which is the layer's entry (b, s', h), the 32 partial sums being the sum over all 16384 hidden columns.

  By induction on n: a first group starts from zero (0 + x = x), a middle group adds one more term to the sum, the last
  group adds its term and finishes.
-/
import proofs.«122750_j77189152243985_2_alg».proof.Proof.Pieces
import proofs.«122750_j77189152243985_2_alg».proof.Proof.Payload
import proofs.«122750_j77189152243985_2_alg».proof.Proof.Blocks

set_option maxRecDepth 16384

noncomputable section

open scoped BigOperators
open Idealize.ShloMosaic Idealize.ShloMosaic.TcCoe Idealize.SL.Sem Idealize.ShloMosaic.ValueIdx

namespace Cert.KernelIdeal.Accum
open Cert.KernelIdeal Cert.KernelIdeal.Gen Cert.KernelIdeal.Blocks Cert.MlpRow

variable (mi : (ℓ : Loc nD τ sig) → Buf (Elt Ideal) ℓ) (c : Dev nD)

/-- Row (b, s) of the summed input. -/
abbrev X (b : Fin 4) (s : Fin 2048) : Fin 4096 → EReal :=
  fun k => (a0 mi c (ix3 b s k) + a1 mi c (ix3 b s k)) + a3 mi c (ix1 k)
/-- The gain, the normalisation's shift, the two weight matrices, the hidden shift and the output shift, by coordinates. -/
abbrev NW : Fin 4096 → EReal := fun k => a4 mi c (ix1 k)
abbrev NB : Fin 4096 → EReal := fun k => a5 mi c (ix1 k)
abbrev W1 : Fin 4096 → Fin 16384 → EReal := fun k j => a6 mi c (ix2 k j)
abbrev B1 : Fin 16384 → EReal := fun j => a7 mi c (ix1 j)
abbrev W2 : Fin 16384 → Fin 4096 → EReal := fun j h => a8 mi c (ix2 j h)
abbrev OB : Fin 4096 → EReal := fun h => a9 mi c (ix1 h)

/-- The first coordinate of the rows of step n's tile. -/
def bOf (n : ℕ) : Fin 4 := ⟨(n / 256) % 4, Nat.mod_lt _ (by norm_num)⟩
/-- The second coordinate of row p of step n's tile. -/
def sOf (n : ℕ) (p : Fin 256) : Fin 2048 :=
  ⟨256 * ((n / 32) % 8) + p.val, by have := Nat.mod_lt (n / 32) (by norm_num : 8 > 0); have := p.isLt; omega⟩

/-- The normalised row of row p of step n's tile. -/
def LN (n : ℕ) (p : Fin 256) : Fin 4096 → EReal := lnRow (X mi c (bOf n) (sOf n p)) (NW mi c) (NB mi c)

/-- What the output block holds at (p, h) after step n. -/
def outVal (n : ℕ) (p : Fin 256) (h : Fin 4096) : EReal :=
  if n % 32 = 31 then
    layerAt (a0 mi c) (a1 mi c) (a3 mi c) (a4 mi c) (a5 mi c) (a6 mi c) (a7 mi c) (a8 mi c) (a9 mi c) (bOf n) (sOf n p) h
  else ∑ s' ∈ Finset.range (n % 32 + 1), part (LN mi c n p) (W1 mi c) (B1 mi c) (W2 mi c) s' h

/-! ## What a step reads -/

theorem hN (t : Fin cfg0.N) : t.val < 1024 := lt_of_lt_of_eq t.isLt (show cfg0.N = 1024 from N_0)

/-- Row p of the tile at step t is row (bOf t, sOf t p) of the summed input. -/
theorem hx0 (t : Fin cfg0.N) (p : Fin 256) (k : Fin 4096) :
    (iblk mi c 0 t : Vec Ideal S256x4096 .f32) (ix2 p k) = X mi c (bOf t.val) (sOf t.val p) k := by
  have hn := hN t
  refine (iblk0_apply mi c t p k ⟨256 * (t.val / 32) + p.val, by have := p.isLt; omega⟩ rfl).trans ?_
  exact V_v4_apply mi c (bOf t.val) (sOf t.val p) k _ (by
    show 256 * (t.val / 32) + p.val = ((t.val / 256) % 4) * 2048 + (256 * ((t.val / 32) % 8) + p.val)
    omega)

theorem hx1 (t : Fin cfg0.N) (k : Fin 4096) : (iblk mi c 1 t : Vec Ideal S1x4096 .f32) (ix2 (0 : Fin 1) k) = NW mi c k :=
  (iblk1_apply mi c t k).trans (V_v5_apply mi c k)

theorem hx2 (t : Fin cfg0.N) (k : Fin 4096) : (iblk mi c 2 t : Vec Ideal S1x4096 .f32) (ix2 (0 : Fin 1) k) = NB mi c k :=
  (iblk2_apply mi c t k).trans (V_v6_apply mi c k)

theorem hx3 (t : Fin cfg0.N) (k : Fin 4096) (q : Fin 512) :
    (iblk mi c 3 t : Vec Ideal S4096x512 .bf16) (ix2 k q) = W1 mi c k (col t.val q) :=
  (iblk3_apply mi c t k q (col t.val q) rfl).trans (V_v9_apply mi c k (col t.val q))

theorem hx4 (t : Fin cfg0.N) (q : Fin 512) :
    (iblk mi c 4 t : Vec Ideal S1x512 .f32) (ix2 (0 : Fin 1) q) = B1 mi c (col t.val q) :=
  (iblk4_apply mi c t q (col t.val q) rfl).trans (V_v7_apply mi c (col t.val q))

theorem hx5 (t : Fin cfg0.N) (q : Fin 512) (h : Fin 4096) :
    (iblk mi c 5 t : Vec Ideal S512x4096 .bf16) (ix2 q h) = W2 mi c (col t.val q) h :=
  (iblk5_apply mi c t q h (col t.val q) rfl).trans (V_v10_apply mi c (col t.val q) h)

theorem hx6 (t : Fin cfg0.N) (h : Fin 4096) : (iblk mi c 6 t : Vec Ideal S1x4096 .f32) (ix2 (0 : Fin 1) h) = OB mi c h :=
  (iblk6_apply mi c t h).trans (V_v8_apply mi c h)

/-! ## The invariant -/

/-- After step n: the carried rows are the tile's normalised rows, the output block is as `outVal` says. -/
structure Inv (n : ℕ) (hn : n < cfg0.N) : Prop where
  ln : ∀ (p : Fin 256) (k : Fin 4096), (outsAt0 mi c n hn).2 (ix2 p k) = LN mi c n p k
  out : ∀ (p : Fin 256) (h : Fin 4096), (outsAt0 mi c n hn).1 (ix2 p h) = outVal mi c n p h

/-- A first group: the rows are normalised afresh, the block is zero plus the first contribution. -/
theorem step_A (t : Fin cfg0.N) (h0 : t.val % 32 = 0) : Inv mi c t.val t.isLt := by
  have h1 : ¬t.val % 32 = 31 := by omega
  have e := outsAt0_A mi c t h0 h1
  have eS := Pieces.sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
    ((hcond0_0 t).mpr h0) (fun h => h1 ((hcond0_1 t).mp h)) (iblk mi c 0 t) (iblk mi c 1 t) (iblk mi c 2 t) (iblk mi c 3 t) (iblk mi c 4 t) (iblk mi c 5 t) (iblk mi c 6 t)
  have eO := Pieces.out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
    ((hcond0_0 t).mpr h0) (fun h => h1 ((hcond0_1 t).mp h)) (iblk mi c 0 t) (iblk mi c 1 t) (iblk mi c 2 t) (iblk mi c 3 t) (iblk mi c 4 t) (iblk mi c 5 t) (iblk mi c 6 t)
  have hln : ∀ (p : Fin 256) (k : Fin 4096),
      k0_pay2 (F := Ideal) (iblk mi c 0 t) (iblk mi c 1 t) (iblk mi c 2 t) (ix2 p k) = LN mi c t.val p k :=
    fun p k => Payload.pay2_ln _ _ _ _ _ _ p k (hx0 mi c t p) (hx1 mi c t) (hx2 mi c t)
  refine ⟨fun p k => ?_, fun p h => ?_⟩
  · rw [e]; dsimp only
    rw [eS]
    exact hln p k
  · rw [e]; dsimp only
    rw [eO]
    refine (Payload.pay4_part _ _ _ _ _ (LN mi c t.val p) (W1 mi c) (B1 mi c) (W2 mi c) t.val p h (hln p)
      (hx3 mi c t) (hx4 mi c t) (fun q => hx5 mi c t q h)).trans ?_
    rw [Payload.pay3_apply, zero_add]
    unfold outVal
    rw [if_neg h1, h0, Finset.sum_range_one, ← part_mod, h0]

/-- A middle group: the rows are kept, the block gains one more term. -/
theorem step_B (t : Fin cfg0.N) (h0 : ¬t.val % 32 = 0) (h1 : ¬t.val % 32 = 31)
    (IH : Inv mi c (t.val - 1) (Nat.lt_of_le_of_lt (Nat.sub_le _ _) t.isLt)) : Inv mi c t.val t.isLt := by
  have hn := hN t
  have e := outsAt0_B mi c t h0 h1
  have eO := Pieces.out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
    (fun h => h0 ((hcond0_0 t).mp h)) (fun h => h1 ((hcond0_1 t).mp h)) (iblk mi c 0 t) (iblk mi c 1 t) (iblk mi c 2 t) (iblk mi c 3 t) (iblk mi c 4 t) (iblk mi c 5 t) (iblk mi c 6 t)
    (outsAt0 mi c (t.val - 1) (Nat.lt_of_le_of_lt (Nat.sub_le _ _) t.isLt)).1 (outsAt0 mi c (t.val - 1) (Nat.lt_of_le_of_lt (Nat.sub_le _ _) t.isLt)).2
  have hb : bOf (t.val - 1) = bOf t.val := Fin.ext (by show ((t.val - 1) / 256) % 4 = (t.val / 256) % 4; omega)
  have hs : ∀ p : Fin 256, sOf (t.val - 1) p = sOf t.val p := fun p => Fin.ext (by
    show 256 * (((t.val - 1) / 32) % 8) + p.val = 256 * ((t.val / 32) % 8) + p.val; omega)
  have hLN : ∀ p : Fin 256, LN mi c (t.val - 1) p = LN mi c t.val p := fun p => by unfold LN; rw [hb, hs]
  have hln : ∀ (p : Fin 256) (k : Fin 4096), (outsAt0 mi c (t.val - 1) (Nat.lt_of_le_of_lt (Nat.sub_le _ _) t.isLt)).2 (ix2 p k) = LN mi c t.val p k :=
    fun p k => (IH.ln p k).trans (congrFun (hLN p) k)
  refine ⟨fun p k => ?_, fun p h => ?_⟩
  · rw [e]; dsimp only [sout0_B_0]
    exact hln p k
  · rw [e]; dsimp only
    rw [eO]
    refine (Payload.pay4_part _ _ _ _ _ (LN mi c t.val p) (W1 mi c) (B1 mi c) (W2 mi c) t.val p h (hln p)
      (hx3 mi c t) (hx4 mi c t) (fun q => hx5 mi c t q h)).trans ?_
    rw [IH.out p h]
    unfold outVal
    have hm : (t.val - 1) % 32 + 1 = t.val % 32 := by omega
    rw [if_neg (by omega : ¬(t.val - 1) % 32 = 31), if_neg h1, hLN p, hm,
      Finset.sum_range_succ (fun s' => part (LN mi c t.val p) (W1 mi c) (B1 mi c) (W2 mi c) s' h) (t.val % 32), part_mod]

/-- The last group: the block gains its last term, then the row and the output shift: the layer's entry. -/
theorem step_C (t : Fin cfg0.N) (h0 : ¬t.val % 32 = 0) (h1 : t.val % 32 = 31)
    (IH : Inv mi c (t.val - 1) (Nat.lt_of_le_of_lt (Nat.sub_le _ _) t.isLt)) : Inv mi c t.val t.isLt := by
  have hn := hN t
  have e := outsAt0_C mi c t h0 h1
  have eO := Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
    (fun h => h0 ((hcond0_0 t).mp h)) ((hcond0_1 t).mpr h1) (iblk mi c 0 t) (iblk mi c 1 t) (iblk mi c 2 t) (iblk mi c 3 t) (iblk mi c 4 t) (iblk mi c 5 t) (iblk mi c 6 t)
    (outsAt0 mi c (t.val - 1) (Nat.lt_of_le_of_lt (Nat.sub_le _ _) t.isLt)).1 (outsAt0 mi c (t.val - 1) (Nat.lt_of_le_of_lt (Nat.sub_le _ _) t.isLt)).2
  have hb : bOf (t.val - 1) = bOf t.val := Fin.ext (by show ((t.val - 1) / 256) % 4 = (t.val / 256) % 4; omega)
  have hs : ∀ p : Fin 256, sOf (t.val - 1) p = sOf t.val p := fun p => Fin.ext (by
    show 256 * (((t.val - 1) / 32) % 8) + p.val = 256 * ((t.val / 32) % 8) + p.val; omega)
  have hLN : ∀ p : Fin 256, LN mi c (t.val - 1) p = LN mi c t.val p := fun p => by unfold LN; rw [hb, hs]
  have hln : ∀ (p : Fin 256) (k : Fin 4096), (outsAt0 mi c (t.val - 1) (Nat.lt_of_le_of_lt (Nat.sub_le _ _) t.isLt)).2 (ix2 p k) = LN mi c t.val p k :=
    fun p k => (IH.ln p k).trans (congrFun (hLN p) k)
  refine ⟨fun p k => ?_, fun p h => ?_⟩
  · rw [e]; dsimp only [sout0_C_0]
    exact hln p k
  · rw [e]; dsimp only
    rw [eO]
    refine (Payload.pay1_apply _ _ _ p h).trans ?_
    rw [Payload.pay4_part _ _ _ _ _ (LN mi c t.val p) (W1 mi c) (B1 mi c) (W2 mi c) t.val p h (hln p)
      (hx3 mi c t) (hx4 mi c t) (fun q => hx5 mi c t q h), IH.out p h, hx0 mi c t p h, hx6 mi c t h]
    have hP : part (LN mi c t.val p) (W1 mi c) (B1 mi c) (W2 mi c) t.val h
        = part (LN mi c t.val p) (W1 mi c) (B1 mi c) (W2 mi c) 31 h := by rw [← part_mod, h1]
    have hm : (t.val - 1) % 32 + 1 = 31 := by omega
    unfold outVal layerAt
    rw [if_neg (by omega : ¬(t.val - 1) % 32 = 31), if_pos h1, hLN p, rowOut_eq_parts, hP, hm, sum_parts_last]
    rfl

/-- The invariant holds after every step. -/
theorem inv_all : ∀ (n : ℕ) (hn : n < cfg0.N), Inv mi c n hn
  | 0, hn => step_A mi c ⟨0, hn⟩ rfl
  | n + 1, hn => by
    have IH := inv_all n (Nat.lt_of_succ_lt hn)
    by_cases h0 : (n + 1) % 32 = 0
    · exact step_A mi c ⟨n + 1, hn⟩ h0
    · by_cases h1 : (n + 1) % 32 = 31
      · exact step_C mi c ⟨n + 1, hn⟩ h0 h1 IH
      · exact step_B mi c ⟨n + 1, hn⟩ h0 h1 IH

end Cert.KernelIdeal.Accum

end
-- ==== Proof.KernelValue.lean ====
/-
  The result of the fused layer, read off the run.

  Each row tile's output block is written back once, after its last group of hidden columns, holding the layer's entries
  of its 256 rows (the invariant of the accumulation); the 32 blocks tile the 8192 × 4096 array, so after the run that
  array holds the layer with its 4 × 2048 rows laid out as 8192: row r is row (r / 2048, r % 2048). The one operation
  after the region lays the rows back out as 4 × 2048, which gives the layer itself.
-/
import proofs.«122750_j77189152243985_2_alg».proof.Proof.Accum
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Final
open Cert.KernelIdeal Cert.KernelIdeal.Gen Cert.KernelIdeal.GridIndex Cert.KernelIdeal.Blocks Cert.KernelIdeal.Accum Cert.MlpRow

variable (mi : (ℓ : Loc nD τ sig) → Buf (Elt Ideal) ℓ) (c : Dev nD) (ρ : Dev nD → PrngReg)

/-- Entry (r, h) of the flat result: the layer's entry at row (r / 2048, r % 2048). -/
def flatAt (r : Fin 8192) (h : Fin 4096) : EReal :=
  layerAt (a0 mi c) (a1 mi c) (a3 mi c) (a4 mi c) (a5 mi c) (a6 mi c) (a7 mi c) (a8 mi c) (a9 mi c) ⟨r.val / 2048, by have := r.isLt; omega⟩ ⟨r.val % 2048, Nat.mod_lt _ (by norm_num)⟩ h

/-- The flat result, 8192 × 4096. -/
def flat : S8192x4096.Idx → EReal := fun i => flatAt mi c (i 0) (i 1)

/-- What a row tile's last step writes back is its block of the flat result. -/
theorem flushed_eq (t : Fin cfg0.N) (hf : (cfg0.win 7).flush t = true) :
    (dats mi 0 c).flushed 7 t = ((cfg0.win 7).blk t).view.read (Elt Ideal) (flat mi c) := by
  have h1 : t.val % 32 = 31 := (flush0_7 t).mp hf
  have hn := hN t
  show (cfg0.win 7).cut (grid0.coords t) ((dats mi 0 c).after 7 t) = _
  rw [after0_7]
  refine funext fun (j : S256x4096.Idx) => ?_
  obtain ⟨p, h, rfl⟩ : ∃ (p : Fin 256) (h : Fin 4096), j = ix2 p h := ⟨j 0, j 1, eq_ix2 j⟩
  rw [View.read_apply]
  show (outsAt0 mi c t.val t.isLt).1 (ix2 p h) = flat mi c (((cfg0.win 7).blk t).view.emb (ix2 p h))
  rw [(inv_all mi c t.val t.isLt).out p h]
  unfold outVal
  rw [if_pos h1]
  have he : ((cfg0.win 7).blk t).view.emb (ix2 p h)
      = ix2 (⟨256 * (t.val / 32) + p.val, by have := p.isLt; omega⟩ : Fin 8192) h := by
    funext a; apply Fin.ext
    match a with
    | ⟨0, _⟩ => show win0_7.index t 0 * 256 + 1 * p.val = 256 * (t.val / 32) + p.val; rw [(idx7 t).1]; omega
    | ⟨1, _⟩ => show win0_7.index t 1 * 4096 + 1 * h.val = h.val; rw [(idx7 t).2]; omega
  rw [he]
  show _ = flatAt mi c _ h
  unfold flatAt
  congr 1 <;> apply Fin.ext
  · show (t.val / 256) % 4 = (256 * (t.val / 32) + p.val) / 2048
    have := p.isLt; omega
  · show 256 * ((t.val / 32) % 8) + p.val = (256 * (t.val / 32) + p.val) % 2048
    have := p.isLt; omega

/-- An entry of the flat array lies in step t's block iff its coordinates are in the block's ranges. -/
theorem mem_blk (t : Fin cfg0.N) (i : S8192x4096.Idx) :
    i ∈ ((cfg0.win 7).blk t).view.set ↔ ∀ a : Fin 2, win0_7.index t a * S256x4096.size a ≤ (i a).val
      ∧ (i a).val < win0_7.index t a * S256x4096.size a + S256x4096.size a := by
  show i ∈ ((View.whole main_v11).slice (win0_7.rect t)).set ↔ _
  rw [View.set_slice_whole, Rect.mem_set_unit]
  exact Iff.rfl

/-- Every entry of the flat array is in the block some row tile's last step writes back. -/
theorem cover (i : S8192x4096.Idx) :
    ∃ t : Fin cfg0.N, (cfg0.win 7).flush t = true ∧ i ∈ ((cfg0.win 7).blk t).view.set := by
  have hi0 : (i 0).val < 8192 := (i 0).isLt
  have hi1 : (i 1).val < 4096 := (i 1).isLt
  have hNN : cfg0.N = 1024 := N_0
  have hlt : 32 * ((i 0).val / 256) + 31 < cfg0.N := by rw [hNN]; omega
  refine ⟨⟨32 * ((i 0).val / 256) + 31, hlt⟩, (flush0_7 _).mpr (by show (32 * ((i 0).val / 256) + 31) % 32 = 31; omega), ?_⟩
  rw [mem_blk]
  intro a
  match a with
  | ⟨0, _⟩ =>
    show win0_7.index ⟨32 * ((i 0).val / 256) + 31, hlt⟩ 0 * 256 ≤ (i 0).val
      ∧ (i 0).val < win0_7.index ⟨32 * ((i 0).val / 256) + 31, hlt⟩ 0 * 256 + 256
    rw [(idx7 ⟨32 * ((i 0).val / 256) + 31, hlt⟩).1]
    show (32 * ((i 0).val / 256) + 31) / 32 * 256 ≤ (i 0).val ∧ (i 0).val < (32 * ((i 0).val / 256) + 31) / 32 * 256 + 256
    omega
  | ⟨1, _⟩ =>
    show win0_7.index ⟨32 * ((i 0).val / 256) + 31, hlt⟩ 1 * 4096 ≤ (i 1).val
      ∧ (i 1).val < win0_7.index ⟨32 * ((i 0).val / 256) + 31, hlt⟩ 1 * 4096 + 4096
    rw [(idx7 ⟨32 * ((i 0).val / 256) + 31, hlt⟩).2]
    omega

/-- So after the run the flat array holds the flat result. -/
theorem final_flat : (dats mi 0 c).arrAt 7 cfg0.N = flat mi c :=
  (dats mi 0 c).arrAt_eq_of_cover 7 (flat mi c) (flushed_eq mi c) (cover)

/-- The rows laid back out as 4 × 2048: the layer. -/
theorem tail_eq : Pipeline.afterTail₀ cfgs (dats mi) 0 (V0 mi) [hostOps1] c main_v12 = layer (a0 mi c) (a1 mi c) (a3 mi c) (a4 mi c) (a5 mi c) (a6 mi c) (a7 mi c) (a8 mi c) (a9 mi c) := by
  unfold Pipeline.afterTail₀
  show StableHlo.after hostOps1 _ (Proc.devRef .tc main_v12) = _
  after_results
  have hw : Pipeline.withArrays (cfgs 0).spec c (V0 mi c) (fun w => (dats mi 0 c).arrAt w (cfgs 0).N)
      (Proc.devRef .tc main_v11) = flat mi c :=
    (Pipeline.withArrays_arr spec0 launch0.win.arr_inj c _ _ 7).trans (final_flat mi c)
  refine ext_ix3 fun b s h => ?_
  show shapeCast S4x2048x4096 (Pipeline.withArrays (cfgs 0).spec c (V0 mi c)
      (fun w => (dats mi 0 c).arrAt w (cfgs 0).N) (Proc.devRef .tc main_v11))
      shapeCasts_S8192x4096_S4x2048x4096 (ix3 b s h) = _
  rw [hw]
  refine (Cert.LibRelayout.shapeCast_nc_abc_apply (flat mi c) _ b s h
    ⟨b.val * 2048 + s.val, by have := b.isLt; have := s.isLt; omega⟩ rfl).trans ?_
  rw [layer_ix3]
  show flatAt mi c _ h = _
  unfold flatAt
  congr 1 <;> apply Fin.ext
  · show (b.val * 2048 + s.val) / 2048 = b.val
    have := s.isLt; omega
  · show (b.val * 2048 + s.val) % 2048 = s.val
    have := s.isLt; omega

/-- The run, read: the result array holds the layer of the argument arrays, which end unchanged. -/
theorem run : θ_run defs (onTc (τ := τ) (main (F := Ideal))) ⟨mi, fun _ => 0, ρ⟩ fun r => ∀ c : Dev nD,
      r.2.mem ((c.tc : Thread nD τ).loc main_v12) = layer (a0 mi c) (a1 mi c) (a3 mi c) (a4 mi c) (a5 mi c) (a6 mi c) (a7 mi c) (a8 mi c) (a9 mi c)
      ∧ r.2.mem ((c.tc : Thread nD τ).loc main_arg0) = mi ((c.tc : Thread nD τ).loc main_arg0)
      ∧ r.2.mem ((c.tc : Thread nD τ).loc main_arg1) = mi ((c.tc : Thread nD τ).loc main_arg1)
      ∧ r.2.mem ((c.tc : Thread nD τ).loc main_arg2) = mi ((c.tc : Thread nD τ).loc main_arg2)
      ∧ r.2.mem ((c.tc : Thread nD τ).loc main_arg3) = mi ((c.tc : Thread nD τ).loc main_arg3)
      ∧ r.2.mem ((c.tc : Thread nD τ).loc main_arg4) = mi ((c.tc : Thread nD τ).loc main_arg4)
      ∧ r.2.mem ((c.tc : Thread nD τ).loc main_arg5) = mi ((c.tc : Thread nD τ).loc main_arg5)
      ∧ r.2.mem ((c.tc : Thread nD τ).loc main_arg6) = mi ((c.tc : Thread nD τ).loc main_arg6)
      ∧ r.2.mem ((c.tc : Thread nD τ).loc main_arg7) = mi ((c.tc : Thread nD τ).loc main_arg7)
      ∧ r.2.mem ((c.tc : Thread nD τ).loc main_arg8) = mi ((c.tc : Thread nD τ).loc main_arg8)
      ∧ r.2.mem ((c.tc : Thread nD τ).loc main_arg9) = mi ((c.tc : Thread nD τ).loc main_arg9) :=
  (θ_run defs _ _).mono (fun _ h c => ⟨
      ((h c).2 main_v12 (Pipeline.mem_restRefs_of main_v12 (by decide) (by decide))).trans (tail_eq mi c),
      ((h c).2 main_arg0 (Pipeline.mem_restRefs_of main_arg0 (by decide) (by decide))).trans (W_main_arg0 mi (dats mi) c),
      ((h c).2 main_arg1 (Pipeline.mem_restRefs_of main_arg1 (by decide) (by decide))).trans (W_main_arg1 mi (dats mi) c),
      ((h c).2 main_arg2 (Pipeline.mem_restRefs_of main_arg2 (by decide) (by decide))).trans (W_main_arg2 mi (dats mi) c),
      ((h c).2 main_arg3 (Pipeline.mem_restRefs_of main_arg3 (by decide) (by decide))).trans (W_main_arg3 mi (dats mi) c),
      ((h c).2 main_arg4 (Pipeline.mem_restRefs_of main_arg4 (by decide) (by decide))).trans (W_main_arg4 mi (dats mi) c),
      ((h c).2 main_arg5 (Pipeline.mem_restRefs_of main_arg5 (by decide) (by decide))).trans (W_main_arg5 mi (dats mi) c),
      ((h c).2 main_arg6 (Pipeline.mem_restRefs_of main_arg6 (by decide) (by decide))).trans (W_main_arg6 mi (dats mi) c),
      ((h c).2 main_arg7 (Pipeline.mem_restRefs_of main_arg7 (by decide) (by decide))).trans (W_main_arg7 mi (dats mi) c),
      ((h c).2 main_arg8 (Pipeline.mem_restRefs_of main_arg8 (by decide) (by decide))).trans (W_main_arg8 mi (dats mi) c),
      ((h c).2 main_arg9 (Pipeline.mem_restRefs_of main_arg9 (by decide) (by decide))).trans (W_main_arg9 mi (dats mi) c)⟩)
    (run_main mi ρ)

end Cert.KernelIdeal.Final

end
-- ==== Proof.RefValue.lean ====
/-
  The reference side of the bridge: the reference program's result, read one entry at a time, is the layer of the
  specification.

  Per row (b, s) the reference adds the two activations and the input shift, takes the mean (zero plus the row sum,
  divided by 4096) and the mean squared deviation (zero plus the sum of squared deviations, divided by 4096), scales the
  deviation by the reciprocal root of the variance plus a small constant, then by the gain, and adds the shift; multiplies
  the normalised row into the 16384 hidden columns and adds the hidden shift; applies the tanh form of the GELU with the
  cube written (z · z) · z; multiplies back into the 4096 output columns; and adds the row and the output shift. The
  specification writes the same thing without the leading zeros and with the cube written z · (z · z); the first
  difference is 0 + a = a and the second is commutativity of multiplication. Every other step is reading a layout
  operation at explicit coordinates.
-/
import proofs.«122750_j77189152243985_2_alg».proof.Proof.Gen.ReferenceIdeal.Read
import proofs.«122750_j77189152243985_2_alg».proof.Proof.Spec
import Idealize.ShloMosaic.Lib.ValueIdx
import Idealize.ShloMosaic.PureOps.Ideal.Laws

noncomputable section

open scoped BigOperators
open Idealize.ShloMosaic Idealize.ShloMosaic.ValueIdx

namespace Cert.ReferenceIdeal.RefValue

open Cert.ReferenceIdeal Cert.ReferenceIdeal.Read

/-! ## The index functions of the layout operations, at explicit coordinates -/

/-- The input shift, read through its two broadcasts at (b, s, k), is read at column k. -/
theorem idx_v2 (b : Fin 4) (s : Fin 2048) (k : Fin 4096) : idx_main_v1 (idx_main_v2 (ix3 b s k)) = ix1 k :=
  funext fun a => Fin.ext (by match a with | ⟨0, _⟩ => rfl)

/-- The gain, read through its two broadcasts at (b, s, k), is read at column k. -/
theorem idx_v23 (b : Fin 4) (s : Fin 2048) (k : Fin 4096) : idx_main_v22 (idx_main_v23 (ix3 b s k)) = ix1 k :=
  funext fun a => Fin.ext (by match a with | ⟨0, _⟩ => rfl)

/-- The normalisation shift, read through its two broadcasts at (b, s, k), is read at column k. -/
theorem idx_v26 (b : Fin 4) (s : Fin 2048) (k : Fin 4096) : idx_main_v25 (idx_main_v26 (ix3 b s k)) = ix1 k :=
  funext fun a => Fin.ext (by match a with | ⟨0, _⟩ => rfl)

/-- The hidden shift, read through its two broadcasts at (b, s, j), is read at hidden column j. -/
theorem idx_v30 (b : Fin 4) (s : Fin 2048) (j : Fin 16384) : idx_main_v29 (idx_main_v30 (ix3 b s j)) = ix1 j :=
  funext fun a => Fin.ext (by match a with | ⟨0, _⟩ => rfl)

/-- The output shift, read through its two broadcasts at (b, s, h), is read at column h. -/
theorem idx_v48 (b : Fin 4) (s : Fin 2048) (h : Fin 4096) : idx_main_v47 (idx_main_v48 (ix3 b s h)) = ix1 h :=
  funext fun a => Fin.ext (by match a with | ⟨0, _⟩ => rfl)

/-- Term k of the first row sum at (b, s) is entry (b, s, k). -/
theorem idx_v4 (b : Fin 4) (s : Fin 2048) (k : Fin 4096) : idx_main_v4 (ix2 b s) k = ix3 b s k :=
  funext fun a => Fin.ext (by match a with | ⟨0, _⟩ => rfl | ⟨1, _⟩ => rfl | ⟨2, _⟩ => rfl)

/-- Term k of the second row sum at (b, s) is entry (b, s, k). -/
theorem idx_v11 (b : Fin 4) (s : Fin 2048) (k : Fin 4096) : idx_main_v11 (ix2 b s) k = ix3 b s k :=
  funext fun a => Fin.ext (by match a with | ⟨0, _⟩ => rfl | ⟨1, _⟩ => rfl | ⟨2, _⟩ => rfl)

/-- The first row sum, given a trailing axis of size one, is read at (b, s). -/
theorem idx_v5 (b : Fin 4) (s : Fin 2048) : idx_main_v5 (ix3 b s (0 : Fin 1)) = ix2 b s :=
  funext fun a => Fin.ext (by match a with | ⟨0, _⟩ => rfl | ⟨1, _⟩ => rfl)

/-- The second row sum, given a trailing axis of size one, is read at (b, s). -/
theorem idx_v12 (b : Fin 4) (s : Fin 2048) : idx_main_v12 (ix3 b s (0 : Fin 1)) = ix2 b s :=
  funext fun a => Fin.ext (by match a with | ⟨0, _⟩ => rfl | ⟨1, _⟩ => rfl)

/-- The mean, broadcast along the row for the squared deviations, is read at (b, s, 0). -/
theorem idx_v8 (b : Fin 4) (s : Fin 2048) (k : Fin 4096) : idx_main_v8 (ix3 b s k) = ix3 b s (0 : Fin 1) :=
  funext fun a => Fin.ext (by match a with | ⟨0, _⟩ => rfl | ⟨1, _⟩ => rfl | ⟨2, _⟩ => rfl)

/-- The mean, broadcast along the row for the normalised row, is read at (b, s, 0). -/
theorem idx_v15 (b : Fin 4) (s : Fin 2048) (k : Fin 4096) : idx_main_v15 (ix3 b s k) = ix3 b s (0 : Fin 1) :=
  funext fun a => Fin.ext (by match a with | ⟨0, _⟩ => rfl | ⟨1, _⟩ => rfl | ⟨2, _⟩ => rfl)

/-- The reciprocal root, broadcast along the row, is read at (b, s, 0). -/
theorem idx_v20 (b : Fin 4) (s : Fin 2048) (k : Fin 4096) : idx_main_v20 (ix3 b s k) = ix3 b s (0 : Fin 1) :=
  funext fun a => Fin.ext (by match a with | ⟨0, _⟩ => rfl | ⟨1, _⟩ => rfl | ⟨2, _⟩ => rfl)

/-- Term k of hidden column j of row (b, s): the left factor is entry (b, s, k). -/
theorem lidx_v28 (b : Fin 4) (s : Fin 2048) (j : Fin 16384) (k : Fin 4096) : lidx_main_v28 (ix3 b s j) k = ix3 b s k :=
  funext fun a => Fin.ext (by match a with | ⟨0, _⟩ => rfl | ⟨1, _⟩ => rfl | ⟨2, _⟩ => rfl)

/-- Term k of hidden column j of row (b, s): the right factor is entry (k, j) of the first weight matrix. -/
theorem ridx_v28 (b : Fin 4) (s : Fin 2048) (j : Fin 16384) (k : Fin 4096) : ridx_main_v28 (ix3 b s j) k = ix2 k j :=
  funext fun a => Fin.ext (by match a with | ⟨0, _⟩ => rfl | ⟨1, _⟩ => rfl)

/-- Term j of output column h of row (b, s): the left factor is entry (b, s, j). -/
theorem lidx_v45 (b : Fin 4) (s : Fin 2048) (h : Fin 4096) (j : Fin 16384) : lidx_main_v45 (ix3 b s h) j = ix3 b s j :=
  funext fun a => Fin.ext (by match a with | ⟨0, _⟩ => rfl | ⟨1, _⟩ => rfl | ⟨2, _⟩ => rfl)

/-- Term j of output column h of row (b, s): the right factor is entry (j, h) of the second weight matrix. -/
theorem ridx_v45 (b : Fin 4) (s : Fin 2048) (h : Fin 4096) (j : Fin 16384) : ridx_main_v45 (ix3 b s h) j = ix2 j h :=
  funext fun a => Fin.ext (by match a with | ⟨0, _⟩ => rfl | ⟨1, _⟩ => rfl)

/-! ## The stages, inside-out -/

/-- Row (b, s) of the summed input as a function of the column: the two activations added, then the shift. -/
def row (x0 x1 : FVec Ideal S4x2048x4096 .f32) (x3 : FVec Ideal S4096 .f32) (b : Fin 4) (s : Fin 2048) : Fin 4096 → EReal :=
  fun k => (x0 (ix3 b s k) + x1 (ix3 b s k)) + x3 (ix1 k)

/-- Entry (b, s, k) of the summed input is entry k of row (b, s). -/
theorem res_at (x0 x1 : FVec Ideal S4x2048x4096 .f32) (x3 : FVec Ideal S4096 .f32) (b : Fin 4) (s : Fin 2048) (k : Fin 4096) :
    val_main_v3 (F := Ideal) x0 x1 x3 (ix3 b s k) = row x0 x1 x3 b s k := by
  rw [val_main_v3_apply, val_main_v0_apply, val_main_v2_apply, val_main_v1_apply, idx_v2]
  rfl

/-- The mean stage at (b, s): zero plus the row sum, divided by 4096, is the mean of the row. -/
theorem mean_at (x0 x1 : FVec Ideal S4x2048x4096 .f32) (x3 : FVec Ideal S4096 .f32) (b : Fin 4) (s : Fin 2048) :
    val_main_v7 (F := Ideal) x0 x1 x3 (ix3 b s (0 : Fin 1)) = Cert.MlpRow.rowMean (row x0 x1 x3 b s) := by
  rw [val_main_v7_apply, val_main_v5_apply, val_main_v6_apply, val_main_cst_0_apply, idx_v5, val_main_v4_apply,
    val_main_cst_apply]
  simp only [idx_v4, res_at]
  rw [Ideal.hostDivf_def, Ideal.ofBits_def, Ideal.ofBits_def, Ideal.ofBits_zero_f32, zero_add]
  rfl

/-- The deviation stage feeding the variance at (b, s, k): the entry minus the mean of its row. -/
theorem dev_at (x0 x1 : FVec Ideal S4x2048x4096 .f32) (x3 : FVec Ideal S4096 .f32) (b : Fin 4) (s : Fin 2048) (k : Fin 4096) :
    val_main_v9 (F := Ideal) x0 x1 x3 (ix3 b s k)
      = row x0 x1 x3 b s k - Cert.MlpRow.rowMean (row x0 x1 x3 b s) := by
  rw [val_main_v9_apply, val_main_v8_apply, idx_v8, mean_at, res_at, Ideal.subf_def]

/-- The deviation stage feeding the normalised row at (b, s, k): the same difference. -/
theorem dev'_at (x0 x1 : FVec Ideal S4x2048x4096 .f32) (x3 : FVec Ideal S4096 .f32) (b : Fin 4) (s : Fin 2048) (k : Fin 4096) :
    val_main_v16 (F := Ideal) x0 x1 x3 (ix3 b s k)
      = row x0 x1 x3 b s k - Cert.MlpRow.rowMean (row x0 x1 x3 b s) := by
  rw [val_main_v16_apply, val_main_v15_apply, idx_v15, mean_at, res_at, Ideal.subf_def]

/-- The variance stage at (b, s): zero plus the sum of squared deviations, divided by 4096. -/
theorem var_at (x0 x1 : FVec Ideal S4x2048x4096 .f32) (x3 : FVec Ideal S4096 .f32) (b : Fin 4) (s : Fin 2048) :
    val_main_v14 (F := Ideal) x0 x1 x3 (ix3 b s (0 : Fin 1)) = Cert.MlpRow.rowVar (row x0 x1 x3 b s) := by
  rw [val_main_v14_apply, val_main_v12_apply, val_main_v13_apply, val_main_cst_2_apply, idx_v12, val_main_v11_apply,
    val_main_cst_1_apply]
  simp only [idx_v11, val_main_v10_apply, dev_at, Ideal.mulf_def]
  rw [Ideal.hostDivf_def, Ideal.ofBits_def, Ideal.ofBits_def, Ideal.ofBits_zero_f32, zero_add]
  rfl

/-- The reciprocal-root stage at (b, s): of the variance plus the small constant. -/
theorem rstd_at (x0 x1 : FVec Ideal S4x2048x4096 .f32) (x3 : FVec Ideal S4096 .f32) (b : Fin 4) (s : Fin 2048) :
    val_main_v19 (F := Ideal) x0 x1 x3 (ix3 b s (0 : Fin 1))
      = Ideal.rsqrt (Cert.MlpRow.rowVar (row x0 x1 x3 b s) + Ideal.ofBits .f32 0x3727C5AC#32) := by
  rw [val_main_v19_apply, val_main_v18_apply, val_main_v17_apply, val_main_cst_3_apply, var_at,
    Ideal.hostUnary_rsqrt_def, Ideal.addf_def, Ideal.ofBits_def]

/-- The normalised stage at (b, s, k): deviation times reciprocal root times gain, plus shift. -/
theorem ln_at (x0 x1 : FVec Ideal S4x2048x4096 .f32) (x3 x4 x5 : FVec Ideal S4096 .f32) (b : Fin 4) (s : Fin 2048) (k : Fin 4096) :
    val_main_v27 (F := Ideal) x0 x1 x3 x4 x5 (ix3 b s k)
      = Cert.MlpRow.lnRow (row x0 x1 x3 b s) (fun k => x4 (ix1 k)) (fun k => x5 (ix1 k)) k := by
  rw [val_main_v27_apply, val_main_v24_apply, val_main_v21_apply, dev'_at, val_main_v20_apply, idx_v20, rstd_at,
    val_main_v23_apply, val_main_v22_apply, idx_v23, val_main_v26_apply, val_main_v25_apply, idx_v26,
    Ideal.addf_def, Ideal.mulf_def, Ideal.mulf_def]
  rfl

/-- The pre-activation at (b, s, j): the normalised row times column j of the first weight matrix, plus the hidden shift. -/
theorem z_at (x0 x1 : FVec Ideal S4x2048x4096 .f32) (x3 x4 x5 : FVec Ideal S4096 .f32)
    (x6 : FVec Ideal S4096x16384 .f32) (x7 : FVec Ideal S16384 .f32) (b : Fin 4) (s : Fin 2048) (j : Fin 16384) :
    val_main_v31 (F := Ideal) x0 x1 x3 x4 x5 x6 x7 (ix3 b s j)
      = (∑ k : Fin 4096, Cert.MlpRow.lnRow (row x0 x1 x3 b s) (fun k => x4 (ix1 k)) (fun k => x5 (ix1 k)) k
          * x6 (ix2 k j)) + x7 (ix1 j) := by
  rw [val_main_v31_apply, val_main_v28_apply, val_main_v30_apply, val_main_v29_apply, idx_v30, Ideal.addf_def]
  simp only [lidx_v28, ridx_v28, ln_at]

/-- The activation stage at any index is the tanh form of the GELU of the pre-activation there. -/
theorem gelu_at (x0 x1 : FVec Ideal S4x2048x4096 .f32) (x3 x4 x5 : FVec Ideal S4096 .f32)
    (x6 : FVec Ideal S4096x16384 .f32) (x7 : FVec Ideal S16384 .f32) (i : S4x2048x16384.Idx) :
    val_main_v44 (F := Ideal) x0 x1 x3 x4 x5 x6 x7 i
      = Cert.MlpRow.gelu (val_main_v31 (F := Ideal) x0 x1 x3 x4 x5 x6 x7 i) := by
  rw [val_main_v44_apply, val_main_v43_apply, val_main_v42_apply, val_main_cst_7_apply, val_main_v41_apply,
    val_main_v40_apply, val_main_cst_6_apply, val_main_v39_apply, val_main_v38_apply, val_main_v37_apply,
    val_main_cst_5_apply, val_main_v36_apply, val_main_v35_apply, val_main_v34_apply, val_main_cst_4_apply,
    val_main_v33_apply, val_main_v32_apply]
  generalize val_main_v31 (F := Ideal) x0 x1 x3 x4 x5 x6 x7 i = z
  simp only [Ideal.mulf_def, Ideal.addf_def, Ideal.hostUnary_tanh_def, Ideal.ofBits_def]
  exact Cert.MlpRow.gelu_cube_left z

/-- The activation stage at (b, s, j) is hidden column j of the normalised row. -/
theorem hid_at (x0 x1 : FVec Ideal S4x2048x4096 .f32) (x3 x4 x5 : FVec Ideal S4096 .f32)
    (x6 : FVec Ideal S4096x16384 .f32) (x7 : FVec Ideal S16384 .f32) (b : Fin 4) (s : Fin 2048) (j : Fin 16384) :
    val_main_v44 (F := Ideal) x0 x1 x3 x4 x5 x6 x7 (ix3 b s j)
      = Cert.MlpRow.hidden (Cert.MlpRow.lnRow (row x0 x1 x3 b s) (fun k => x4 (ix1 k)) (fun k => x5 (ix1 k)))
          (fun k j => x6 (ix2 k j)) (fun j => x7 (ix1 j)) j := by
  rw [gelu_at, z_at]
  rfl

/-- Entry (b, s, h) of the reference's result is output column h of row (b, s). -/
theorem result_apply (x0 x1 : FVec Ideal S4x2048x4096 .f32) (x3 x4 x5 : FVec Ideal S4096 .f32)
    (x6 : FVec Ideal S4096x16384 .f32) (x7 : FVec Ideal S16384 .f32) (x8 : FVec Ideal S16384x4096 .f32)
    (x9 : FVec Ideal S4096 .f32) (b : Fin 4) (s : Fin 2048) (h : Fin 4096) :
    val_main_v49 (F := Ideal) x0 x1 x3 x4 x5 x6 x7 x8 x9 (ix3 b s h)
      = Cert.MlpRow.layerAt x0 x1 x3 x4 x5 x6 x7 x8 x9 b s h := by
  rw [val_main_v49_apply, val_main_v46_apply, val_main_v45_apply, val_main_v48_apply, val_main_v47_apply, idx_v48,
    res_at, Ideal.addf_def, Ideal.addf_def]
  simp only [lidx_v45, ridx_v45, hid_at]
  rfl

/-- The reference's result is the layer of the specification. -/
theorem result_eq (x0 x1 : FVec Ideal S4x2048x4096 .f32) (x3 x4 x5 : FVec Ideal S4096 .f32)
    (x6 : FVec Ideal S4096x16384 .f32) (x7 : FVec Ideal S16384 .f32) (x8 : FVec Ideal S16384x4096 .f32)
    (x9 : FVec Ideal S4096 .f32) :
    val_main_v49 (F := Ideal) x0 x1 x3 x4 x5 x6 x7 x8 x9 = Cert.MlpRow.layer x0 x1 x3 x4 x5 x6 x7 x8 x9 :=
  Cert.MlpRow.ext_ix3 fun b s h => result_apply x0 x1 x3 x4 x5 x6 x7 x8 x9 b s h

end Cert.ReferenceIdeal.RefValue

end
-- ==== Proof.lean ====
/-
  The fused layer against its reference: both compute, for every row of the 4 × 2048 rows, the same function of the
  arguments over the extended reals.

  The layer normalises a row (the two activations plus the input shift), multiplies it into 16384 hidden columns, applies
  the tanh form of the GELU, multiplies back into 4096 columns and adds the row and the output shift (Spec.lean). The
  reference does this in one piece per row (RefValue.lean). The kernel works a tile of 256 rows at a time and takes the
  hidden columns 512 at a time, adding 32 partial products into a block that starts at zero, and keeps the normalised
  rows between the groups (Pieces.lean, Payload.lean, Blocks.lean, Accum.lean, KernelValue.lean). The two agree because a sum
  over 16384 terms is the sum of 32 sums of 512 terms, because 0 + x = x, and because the cube z · (z · z) is (z · z) · z:
  laws of addition and multiplication that hold for all extended reals, so finiteness of the inputs is never used. A change
  of number format is the identity at the exact values, so the 16-bit copies of the weights and of the intermediate rows
  change nothing.

  The three programs run, fault-free, with their arguments unchanged: the two kernels by their frames, the reference by
  its run.
-/
import proofs.«122750_j77189152243985_2_alg».proof.Defs
import proofs.«122750_j77189152243985_2_alg».proof.Proof.Gen.Kernel
import proofs.«122750_j77189152243985_2_alg».proof.Proof.Gen.Kernel.Skeleton
import proofs.«122750_j77189152243985_2_alg».proof.Proof.Gen.Kernel.Launch
import proofs.«122750_j77189152243985_2_alg».proof.Proof.Gen.Kernel.Points
import proofs.«122750_j77189152243985_2_alg».proof.Proof.Gen.Kernel.Frame
import proofs.«122750_j77189152243985_2_alg».proof.Proof.Gen.KernelIdeal
import proofs.«122750_j77189152243985_2_alg».proof.Proof.Gen.KernelIdeal.Skeleton
import proofs.«122750_j77189152243985_2_alg».proof.Proof.Gen.KernelIdeal.Launch
import proofs.«122750_j77189152243985_2_alg».proof.Proof.Gen.KernelIdeal.Points
import proofs.«122750_j77189152243985_2_alg».proof.Proof.Gen.KernelIdeal.Frame
import proofs.«122750_j77189152243985_2_alg».proof.Proof.Gen.ReferenceIdeal
import proofs.«122750_j77189152243985_2_alg».proof.Proof.Gen.Pre_finite_inputs
import proofs.«122750_j77189152243985_2_alg».proof.Proof.Gen.ReferenceIdeal.Run
import proofs.«122750_j77189152243985_2_alg».proof.Proof.Gen.ReferenceIdeal.Read
import proofs.«122750_j77189152243985_2_alg».proof.Proof.KernelValue
import proofs.«122750_j77189152243985_2_alg».proof.Proof.RefValue
import Idealize.ShloMosaic.Adequacy
import Idealize.ShloMosaic.Init

noncomputable section

namespace Cert.Proof

open Idealize.ShloMosaic Idealize.SL.Sem

/-- The word-level kernel runs with its arguments unchanged. -/
theorem frame_k : Cert.frame_Kernel := fun m ρ _ => Cert.Kernel.Gen.frame m ρ

/-- So does the kernel read at the exact values. -/
theorem frame_ki : Cert.frame_KernelIdeal := fun m ρ _ => Cert.KernelIdeal.Gen.frame m ρ

/-- And the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the exact values the kernel's result array ends at the layer of its arguments, and the reference's at the layer
    of arguments that agree with them. -/
theorem algebraic : Cert.algebraic_KernelIdeal_ReferenceIdeal := by
  intro m ρ m' ρ' _ hagree
  refine ⟨fun c => Cert.MlpRow.layer (Cert.KernelIdeal.Blocks.a0 m c) (Cert.KernelIdeal.Blocks.a1 m c)
    (Cert.KernelIdeal.Blocks.a3 m c) (Cert.KernelIdeal.Blocks.a4 m c) (Cert.KernelIdeal.Blocks.a5 m c)
    (Cert.KernelIdeal.Blocks.a6 m c) (Cert.KernelIdeal.Blocks.a7 m c) (Cert.KernelIdeal.Blocks.a8 m c)
    (Cert.KernelIdeal.Blocks.a9 m c), Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, Cert.ReferenceIdeal.RefValue.result_eq]
  obtain ⟨e0, e1, _, e3, e4, e5, e6, e7, e8, e9⟩ := hagree c
  rw [e0, e1, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
